-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1700000 : Shape := ⟨1, ![1700000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x200 : Shape := ⟨2, ![64, 200]⟩
abbrev S200 : Shape := ⟨1, ![200]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x200 : S_.BroadcastsInDim S64x200 (![] : Fin 0 → Fin S64x200.rank)
  reducesTo_S64x200_S_d0_1 : S64x200.ReducesTo [0, 1] S_
  bcast_S_S200 : S_.BroadcastsInDim S200 (![] : Fin 0 → Fin S200.rank)
  reducesTo_S200_S_d0 : S200.ReducesTo [0] S_

variable [Facts]

def fn_part1 {F : FTy → Type} [FloatOps F] (main_arg6 : FVec F S64 .f32) (main_arg7 : FVec F S64x200 .f32) (main_arg8 : FVec F S200 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x200 .f32 := Host.absf main_arg7
  let main_cst_8 : FVec F S_ .f32 := constant S_ .f32 0x7F800000#32
  let main_v25 : FVec F S64x200 .f32 := broadcastInDim S64x200 ![] bcast_S_S64x200 main_cst_8
  let main_v26 : IVec S64x200 1 := cmpf .olt main_v24 main_v25
  let main_c_9 : IVec S_ 1 := constantI S_ 1 1#1
  let main_v27 : IVec S_ 1 := (fun x v => Host.reduce IntOp.andi x v reducesTo_S64x200_S_d0_1 h_S_) main_v26 main_c_9
  let main_v28 : IVec S_ 1 := andi main_v23 main_v27
  let main_v29 : FVec F S200 .f32 := Host.absf main_arg8
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  main_v33

def fn {F : FTy → Type} [FloatOps F] (main_arg0 : FVec F S100000x256 .f32) (main_arg1 : IVec S1700000 32) (main_arg2 : IVec S1700000 32) (main_arg3 : FVec F S256x128 .f32) (main_arg4 : FVec F S128 .f32) (main_arg5 : FVec F S128x64 .f32) (main_arg6 : FVec F S64 .f32) (main_arg7 : FVec F S64x200 .f32) (main_arg8 : FVec F S200 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_v13 main_v16
-- ==== Kernel.lean ====
abbrev S100000x256 : Shape := ⟨2, ![100000, 256]⟩
abbrev S1700000 : Shape := ⟨1, ![1700000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x200 : Shape := ⟨2, ![64, 200]⟩
abbrev S200 : Shape := ⟨1, ![200]⟩
abbrev S_ : Shape := ⟨0, ![]⟩
abbrev S100000 : Shape := ⟨1, ![100000]⟩
abbrev S1700000x1 : Shape := ⟨2, ![1700000, 1]⟩
abbrev S100000x1 : Shape := ⟨2, ![100000, 1]⟩
abbrev S1x128 : Shape := ⟨2, ![1, 128]⟩
abbrev S1x64 : Shape := ⟨2, ![1, 64]⟩
abbrev S1x200 : Shape := ⟨2, ![1, 200]⟩
abbrev S100000x128 : Shape := ⟨2, ![100000, 128]⟩
abbrev S4000x256 : Shape := ⟨2, ![4000, 256]⟩
abbrev S4000x1 : Shape := ⟨2, ![4000, 1]⟩
abbrev S4000x128 : Shape := ⟨2, ![4000, 128]⟩
abbrev S1700000x128 : Shape := ⟨2, ![1700000, 128]⟩
abbrev S100000x64 : Shape := ⟨2, ![100000, 64]⟩
abbrev S4000x64 : Shape := ⟨2, ![4000, 64]⟩
abbrev S1700000x64 : Shape := ⟨2, ![1700000, 64]⟩
abbrev S100000x200 : Shape := ⟨2, ![100000, 200]⟩
abbrev S2000x64 : Shape := ⟨2, ![2000, 64]⟩
abbrev S2000x1 : Shape := ⟨2, ![2000, 1]⟩
abbrev S2000x200 : Shape := ⟨2, ![2000, 200]⟩
abbrev S2000 : Shape := ⟨1, ![2000]⟩

abbrev nBuf : Space → Nat
  | .hbm => 71
  | .vmem => 26
  | .smem => 0
  | _ => 0

abbrev bufTy : (tb : Table) → Fin (tcTables nBuf tb) → BufTy
  | .hbm, ⟨0, _⟩ => ⟨S100000x256, .f32⟩
  | .hbm, ⟨1, _⟩ => ⟨S1700000, .i32⟩
  | .hbm, ⟨2, _⟩ => ⟨S1700000, .i32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x200, .f32⟩
  | .hbm, ⟨8, _⟩ => ⟨S200, .f32⟩
  | .hbm, ⟨9, _⟩ => ⟨S_, .f32⟩
  | .hbm, ⟨10, _⟩ => ⟨S1700000, .f32⟩
  | .hbm, ⟨11, _⟩ => ⟨S_, .f32⟩
  | .hbm, ⟨12, _⟩ => ⟨S100000, .f32⟩
  | .hbm, ⟨13, _⟩ => ⟨S1700000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S_, .f32⟩
  | .hbm, ⟨24, _⟩ => ⟨S1700000, .f32⟩
  | .hbm, ⟨25, _⟩ => ⟨S_, .f32⟩
  | .hbm, ⟨26, _⟩ => ⟨S100000, .f32⟩
  | .hbm, ⟨27, _⟩ => ⟨S1700000x1, .i32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S1x128, .f32⟩
  | .hbm, ⟨38, _⟩ => ⟨S1x64, .f32⟩
  | .hbm, ⟨39, _⟩ => ⟨S1x200, .f32⟩
  | .hbm, ⟨40, _⟩ => ⟨S100000x128, .bf16⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .bf16⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S100000x64, .bf16⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x64, .bf16⟩
  | .hbm, ⟨65, _⟩ => ⟨S1700000x64, .f32⟩
  | .hbm, ⟨66, _⟩ => ⟨S_, .f32⟩
  | .hbm, ⟨67, _⟩ => ⟨S100000x64, .f32⟩
  | .hbm, ⟨68, _⟩ => ⟨S1700000x1, .i32⟩
  | .hbm, ⟨69, _⟩ => ⟨S100000x64, .f32⟩
  | .hbm, ⟨70, _⟩ => ⟨S100000x200, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x1, .f32⟩
  | .local _ .vmem, ⟨4, _⟩ => ⟨S4000x1, .f32⟩
  | .local _ .vmem, ⟨5, _⟩ => ⟨S4000x128, .bf16⟩
  | .local _ .vmem, ⟨6, _⟩ => ⟨S4000x128, .bf16⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S1x128, .f32⟩
  | .local _ .vmem, ⟨12, _⟩ => ⟨S128x64, .f32⟩
  | .local _ .vmem, ⟨13, _⟩ => ⟨S4000x1, .f32⟩
  | .local _ .vmem, ⟨14, _⟩ => ⟨S4000x1, .f32⟩
  | .local _ .vmem, ⟨15, _⟩ => ⟨S4000x64, .bf16⟩
  | .local _ .vmem, ⟨16, _⟩ => ⟨S4000x64, .bf16⟩
  | .local _ .vmem, ⟨17, _⟩ => ⟨S2000x64, .f32⟩
  | .local _ .vmem, ⟨18, _⟩ => ⟨S2000x64, .f32⟩
  | .local _ .vmem, ⟨19, _⟩ => ⟨S2000x1, .f32⟩
  | .local _ .vmem, ⟨20, _⟩ => ⟨S2000x1, .f32⟩
  | .local _ .vmem, ⟨21, _⟩ => ⟨S1x64, .f32⟩
  | .local _ .vmem, ⟨22, _⟩ => ⟨S64x200, .f32⟩
  | .local _ .vmem, ⟨23, _⟩ => ⟨S1x200, .f32⟩
  | .local _ .vmem, ⟨24, _⟩ => ⟨S2000x200, .f32⟩
  | .local _ .vmem, ⟨25, _⟩ => ⟨S2000x200, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_cst_4 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v12 : Ref sig .tc := ⟨.hbm, 32, rfl⟩
abbrev main_cst_6 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_7 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_8 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_9 : Ref sig .tc := ⟨.hbm, 56, rfl⟩
abbrev main_v32 : Ref sig .tc := ⟨.hbm, 57, rfl⟩
abbrev main_v33 : Ref sig .tc := ⟨.hbm, 58, rfl⟩
abbrev main_c_10 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x200 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x200 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x200 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S128_S1x128 : S128.ShapeCasts S1x128
  shapeCasts_S64_S1x64 : S64.ShapeCasts S1x64
  shapeCasts_S200_S1x200 : S200.ShapeCasts S1x200
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  broadcasts_S4000x1_S4000x64 : S4000x1.Broadcasts S4000x64
  inb_S4000x64_S4000x64_0_0 : ∀ a, (![0, 0] : Fin 2 → Nat) a + S4000x64.size a ≤ S4000x64.size a
  h_S4000x64 : 0 < S4000x64.numel
  packedbf16_S4000x64_S4000x64_0_0 : (Rect.unit (s := S4000x64) ![0, 0] S4000x64.size inb_S4000x64_S4000x64_0_0).PackedRows (EltTy.packing .bf16)
  bcast_S_S100000x64 : S_.BroadcastsInDim S100000x64 (![] : Fin 0 → Fin S100000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x200_S64x200_0_0 : ∀ a, (![0, 0] : Fin 2 → Nat) a + S64x200.size a ≤ S64x200.size a
  h_S64x200 : 0 < S64x200.numel
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2000x200 : S1x200.Broadcasts S2000x200
  reduces_S2000x200_S2000 : S2000x200.Reduces [1] S2000
  shapeCasts_S2000_S2000x1 : S2000.ShapeCasts S2000x1
  broadcasts_S2000x1_S2000x200 : S2000x1.Broadcasts S2000x200
  inb_S2000x200_S2000x200_0_0 : ∀ a, (![0, 0] : Fin 2 → Nat) a + S2000x200.size a ≤ S2000x200.size a
  h_S2000x200 : 0 < S2000x200.numel
  scatter_S100000_S1700000x1_S1700000_n_0_0_1_wf : ScatterDims.WF S100000 S1700000x1 S1700000 [] [0] [0] 1
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x64_S4000x64_1_0_0_1_n_n_wf : DotDims.WF S4000x128 S128x64 S4000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x200_S2000x200_1_0_0_1_n_n_wf : DotDims.WF S2000x64 S64x200 S2000x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .bf16 = 32 ∨ (Rect.block (s := S100000x128) S4000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S100000x1.size a
  hwx1_4 : ∀ i : grid1.Coords, EltTy.bits .f32 = 32 ∨ (Rect.block (s := S100000x1) S4000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .bf16 = 32 ∨ (Rect.block (s := S100000x64) S4000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x200.size a ≤ S64x200.size a
  hwx2_3 : ∀ i : grid2.Coords, EltTy.bits .f32 = 32 ∨ (Rect.block (s := S64x200) S64x200.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x200.size a ≤ S1x200.size a
  hwx2_4 : ∀ i : grid2.Coords, EltTy.bits .f32 = 32 ∨ (Rect.block (s := S1x200) S1x200.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x200.size a ≤ S100000x200.size a
  hwx2_5 : ∀ i : grid2.Coords, EltTy.bits .f32 = 32 ∨ (Rect.block (s := S100000x200) S2000x200.size (cc2_transform_5 i) (hinb2_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x200_S2000x200_1_0_0_1_n_n : DotDims S2000x64 S64x200 S2000x200 where
  lhsContracting := [1]
  rhsContracting := [0]
  lhsNonContracting := [0]
  rhsNonContracting := [1]
  lhsBatch := []
  rhsBatch := []
  wf := dot_S2000x64_S64x200_S2000x200_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S4000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v42) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S64x200.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v18) S1x200.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v43) S2000x200.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S1700000 : Shape := ⟨1, ![1700000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x200 : Shape := ⟨2, ![64, 200]⟩
abbrev S200 : Shape := ⟨1, ![200]⟩
abbrev S100000x128 : Shape := ⟨2, ![100000, 128]⟩
abbrev S_ : Shape := ⟨0, ![]⟩
abbrev S100000 : Shape := ⟨1, ![100000]⟩
abbrev S1700000x1 : Shape := ⟨2, ![1700000, 1]⟩
abbrev S100000x1 : Shape := ⟨2, ![100000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x200 : Shape := ⟨2, ![100000, 200]⟩
abbrev S1x200 : Shape := ⟨2, ![1, 200]⟩

abbrev nBuf : Space → Nat
  | .hbm => 132
  | .vmem => 0
  | .smem => 0
  | _ => 0

abbrev hbmTy0_0 (i : Nat) : BufTy := match i % 128 with
  | 0 => ⟨S100000x256, .f32⟩
  | 1 => ⟨S1700000, .i32⟩
  | 2 => ⟨S1700000, .i32⟩
  | 3 => ⟨S256x128, .f32⟩
  | 4 => ⟨S128, .f32⟩
  | 5 => ⟨S128x64, .f32⟩
  | 6 => ⟨S64, .f32⟩
  | 7 => ⟨S64x200, .f32⟩
  | 8 => ⟨S200, .f32⟩
  | 9 => ⟨S100000x128, .f32⟩
  | 10 => ⟨S_, .f32⟩
  | 11 => ⟨S1700000, .f32⟩
  | 12 => ⟨S_, .f32⟩
  | 13 => ⟨S100000, .f32⟩
  | 14 => ⟨S1700000x1, .i32⟩
  | 15 => ⟨S100000, .f32⟩
  | 16 => ⟨S_, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S100000x128, .f32⟩
  | 25 => ⟨S100000x128, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000x128, .f32⟩
  | 35 => ⟨S_, .f32⟩
  | 36 => ⟨S100000x128, .f32⟩
  | 37 => ⟨S1700000x1, .i32⟩
  | 38 => ⟨S100000x128, .f32⟩
  | 39 => ⟨S_, .f32⟩
  | 40 => ⟨S1700000, .f32⟩
  | 41 => ⟨S_, .f32⟩
  | 42 => ⟨S100000, .f32⟩
  | 43 => ⟨S1700000x1, .i32⟩
  | 44 => ⟨S100000, .f32⟩
  | 45 => ⟨S_, .f32⟩
  | 46 => ⟨S_, .f32⟩
  | 47 => ⟨S100000, .f32⟩
  | 48 => ⟨S100000, .f32⟩
  | 49 => ⟨S_, .f32⟩
  | 50 => ⟨S100000, .f32⟩
  | 51 => ⟨S100000, .f32⟩
  | 52 => ⟨S100000x1, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S100000x64, .f32⟩
  | 62 => ⟨S_, .f32⟩
  | 63 => ⟨S1700000, .f32⟩
  | 64 => ⟨S_, .f32⟩
  | 65 => ⟨S100000, .f32⟩
  | 66 => ⟨S1700000x1, .i32⟩
  | 67 => ⟨S100000, .f32⟩
  | 68 => ⟨S_, .f32⟩
  | 69 => ⟨S_, .f32⟩
  | 70 => ⟨S100000, .f32⟩
  | 71 => ⟨S100000, .f32⟩
  | 72 => ⟨S_, .f32⟩
  | 73 => ⟨S100000, .f32⟩
  | 74 => ⟨S100000, .f32⟩
  | 75 => ⟨S100000x1, .f32⟩
  | 76 => ⟨S100000x64, .f32⟩
  | 77 => ⟨S100000x64, .f32⟩
  | 78 => ⟨S_, .i32⟩
  | 79 => ⟨S1700000, .i32⟩
  | 80 => ⟨S1700000, .i1⟩
  | 81 => ⟨S_, .i32⟩
  | 82 => ⟨S1700000, .i32⟩
  | 83 => ⟨S1700000, .i32⟩
  | 84 => ⟨S1700000, .i32⟩
  | 85 => ⟨S1700000x1, .i32⟩
  | 86 => ⟨S1700000x64, .f32⟩
  | 87 => ⟨S_, .f32⟩
  | 88 => ⟨S100000x64, .f32⟩
  | 89 => ⟨S1700000x1, .i32⟩
  | 90 => ⟨S100000x64, .f32⟩
  | 91 => ⟨S_, .f32⟩
  | 92 => ⟨S1700000, .f32⟩
  | 93 => ⟨S_, .f32⟩
  | 94 => ⟨S100000, .f32⟩
  | 95 => ⟨S1700000x1, .i32⟩
  | 96 => ⟨S100000, .f32⟩
  | 97 => ⟨S_, .f32⟩
  | 98 => ⟨S_, .f32⟩
  | 99 => ⟨S100000, .f32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S100000x200, .f32⟩
  | 114 => ⟨S1x200, .f32⟩
  | 115 => ⟨S100000x200, .f32⟩
  | 116 => ⟨S100000x200, .f32⟩
  | 117 => ⟨S_, .f32⟩
  | 118 => ⟨S100000, .f32⟩
  | 119 => ⟨S_, .f32⟩
  | 120 => ⟨S100000, .f32⟩
  | 121 => ⟨S100000, .f32⟩
  | 122 => ⟨S100000x1, .f32⟩
  | 123 => ⟨S100000x200, .f32⟩
  | 124 => ⟨S100000x200, .f32⟩
  | 125 => ⟨S100000x200, .f32⟩
  | 126 => ⟨S_, .f32⟩
  | 127 => ⟨S100000, .f32⟩
  | _ => ⟨S100000x256, .f32⟩

abbrev hbmTy0_1 (i : Nat) : BufTy := match i % 128 with
  | 0 => ⟨S100000x1, .f32⟩
  | 1 => ⟨S100000x1, .f32⟩
  | 2 => ⟨S100000x200, .f32⟩
  | 3 => ⟨S100000x200, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_5 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v25 : Ref sig .tc := ⟨.hbm, 48, rfl⟩
abbrev main_cst_8 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call2_cst : Ref sig .tc := ⟨.hbm, 58, rfl⟩
abbrev main_call2_v0 : Ref sig .tc := ⟨.hbm, 59, rfl⟩
abbrev main_v34 : Ref sig .tc := ⟨.hbm, 60, rfl⟩
abbrev main_v35 : Ref sig .tc := ⟨.hbm, 61, rfl⟩
abbrev main_cst_9 : Ref sig .tc := ⟨.hbm, 62, rfl⟩
abbrev main_v36 : Ref sig .tc := ⟨.hbm, 63, rfl⟩
abbrev main_cst_10 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_11 : Ref sig .tc := ⟨.hbm, 68, rfl⟩
abbrev main_call3_v0 : Ref sig .tc := ⟨.hbm, 69, rfl⟩
abbrev main_call3_v1 : Ref sig .tc := ⟨.hbm, 70, rfl⟩
abbrev main_v40 : Ref sig .tc := ⟨.hbm, 71, rfl⟩
abbrev main_cst_12 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c_13 : Ref sig .tc := ⟨.hbm, 78, rfl⟩
abbrev main_v46 : Ref sig .tc := ⟨.hbm, 79, rfl⟩
abbrev main_v47 : Ref sig .tc := ⟨.hbm, 80, rfl⟩
abbrev main_c_14 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_15 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_16 : Ref sig .tc := ⟨.hbm, 91, rfl⟩
abbrev main_v56 : Ref sig .tc := ⟨.hbm, 92, rfl⟩
abbrev main_cst_17 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_18 : Ref sig .tc := ⟨.hbm, 97, rfl⟩
abbrev main_call4_v0 : Ref sig .tc := ⟨.hbm, 98, rfl⟩
abbrev main_call4_v1 : Ref sig .tc := ⟨.hbm, 99, rfl⟩
abbrev main_v60 : Ref sig .tc := ⟨.hbm, 100, rfl⟩
abbrev main_cst_19 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_call5_cst : Ref sig .tc := ⟨.hbm, 110, rfl⟩
abbrev main_call5_v0 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_call6_cst : Ref sig .tc := ⟨.hbm, 117, rfl⟩
abbrev main_call6_v0 : Ref sig .tc := ⟨.hbm, 118, rfl⟩
abbrev main_call6_cst_0 : Ref sig .tc := ⟨.hbm, 119, rfl⟩
abbrev main_call6_v1 : Ref sig .tc := ⟨.hbm, 120, rfl⟩
abbrev main_call6_v2 : Ref sig .tc := ⟨.hbm, 121, rfl⟩
abbrev main_call6_v3 : Ref sig .tc := ⟨.hbm, 122, rfl⟩
abbrev main_call6_v4 : Ref sig .tc := ⟨.hbm, 123, rfl⟩
abbrev main_call6_v5 : Ref sig .tc := ⟨.hbm, 124, rfl⟩
abbrev main_call6_v6 : Ref sig .tc := ⟨.hbm, 125, rfl⟩
abbrev main_call6_cst_1 : Ref sig .tc := ⟨.hbm, 126, rfl⟩
abbrev main_call6_v7 : Ref sig .tc := ⟨.hbm, 127, rfl⟩
abbrev main_call6_v8 : Ref sig .tc := ⟨.hbm, 128, rfl⟩
abbrev main_call6_v9 : Ref sig .tc := ⟨.hbm, 129, rfl⟩
abbrev main_call6_v10 : Ref sig .tc := ⟨.hbm, 130, rfl⟩
abbrev main_v74 : Ref sig .tc := ⟨.hbm, 131, rfl⟩

abbrev nD : Nat := 1
abbrev τ : Topo := Topo.v7x

variable {F : FTy → Type} [FloatOps F]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S200_S1x200_1 : S200.BroadcastsInDim S1x200 (![1] : Fin 1 → Fin S1x200.rank)
  bcast_S1x200_S100000x200_0_1 : S1x200.BroadcastsInDim S100000x200 (![0, 1] : Fin 2 → Fin S100000x200.rank)
  reducesTo_S100000x200_S100000_d1 : S100000x200.ReducesTo [1] S100000
  h_S_ : 0 < S_.numel
  bcast_S100000x1_S100000x200_0_1 : S100000x1.BroadcastsInDim S100000x200 (![0, 1] : Fin 2 → Fin S100000x200.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x200_S100000x200_1_0_0_1_n_n_wf : DotDims.WF S100000x64 S64x200 S100000x200 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x200_S100000x200_1_0_0_1_n_n : DotDims S100000x64 S64x200 S100000x200 where
  lhsContracting := [1]
  rhsContracting := [0]
  lhsNonContracting := [0]
  rhsNonContracting := [1]
  lhsBatch := []
  rhsBatch := []
  wf := dot_S100000x64_S64x200_S100000x200_1_0_0_1_n_n_wf

class Facts : Prop extends Facts₀ where

variable [Facts]
-- ==== Proof.LibBufCasts.lean ====
/-
  Contents of a typed buffer reference, moved to the buffer's own type and back.

  A function called from @main states its operations at the types of the tensor values; each operand is moved from its
  buffer's type to the value's type, and each result back, along the equation "the buffer's type is the value's type".
  Whatever that equation's proof, the two moves cancel: reading a called function's line of operations leaves them
  stacked in pairs around every intermediate value, and these two equations remove the pairs without unfolding anything.
-/
import Idealize.ShloMosaic.Lib.StableHlo

namespace Cert.Lib.BufCasts

open Idealize.ShloMosaic Idealize.ShloMosaic.StableHlo

variable {sig : RefSig} {Val : EltTy → Type} {T : BufTy}

/-- Contents moved to the buffer's own type and back to the value's type are unchanged. -/
theorem ofBuf_toBuf (x : TRef sig T) (v : T.Contents Val) : x.ofBuf (x.toBuf v) = v := by
  obtain ⟨r, h, h1, h2⟩ := x
  subst h
  rfl

/-- Contents moved to the value's type and back to the buffer's own type are unchanged. -/
theorem toBuf_ofBuf (x : TRef sig T) (v : x.ref.ty.Contents Val) : x.toBuf (x.ofBuf v) = v := by
  obtain ⟨r, h, h1, h2⟩ := x
  subst h
  rfl

end Cert.Lib.BufCasts
-- ==== Proof.Layers.lean ====
/-
  The layers of a two-layer graph convolution network with a log-softmax head, entry by entry, over the extended reals.

  A graph convolution multiplies the node features by a weight matrix, scales row p by the inverse square root of node
  p's out-degree, sums the scaled rows along the edges into their destination nodes, scales row p of the sum by the
  inverse square root of node p's in-degree and adds a bias.  The summation along edges is shared, as one function, by
  the two programs compared here; what differs between them is only how the dense arithmetic around it is tiled, so
  that arithmetic is named here once:

  * `scaledProduct x w s`  — entry (p, q) of x·w, times the scale of row p;
  * `rectified a d b`      — entry (p, k) of max (a ∘ d + b, 0): the aggregate scaled by rows, biased by columns, rectified;
  * `logits a d b w c`     — entry (p, q) of rectified·w + c;
  The row-wise log-softmax applied to the logits is a general function and lives in a module of its own.
-/
import Idealize.ShloMosaic.Lib.ValueIdx
import Idealize.ShloMosaic.PureOps.Ideal

noncomputable section

namespace Cert.Layers

open Idealize.ShloMosaic Idealize.ShloMosaic.ValueIdx

variable {a K N : Nat}

/-- Entry (p, q) of the product x·w, scaled by the row's factor s(p). -/
def scaledProduct (x : (⟨2, ![a, K]⟩ : Shape).Idx → EReal) (w : (⟨2, ![K, N]⟩ : Shape).Idx → EReal)
    (s : (⟨2, ![a, 1]⟩ : Shape).Idx → EReal) (p : Fin a) (q : Fin N) : EReal :=
  (∑ k : Fin K, x (ix2 p k) * w (ix2 k q)) * s (ix2 p (0 : Fin 1))

/-- Entry (p, k) of the aggregate, scaled by the row's factor d(p), biased by the column's b(k), and rectified. -/
def rectified (agg : (⟨2, ![a, K]⟩ : Shape).Idx → EReal) (d : (⟨2, ![a, 1]⟩ : Shape).Idx → EReal)
    (b : (⟨2, ![1, K]⟩ : Shape).Idx → EReal) (p : Fin a) (k : Fin K) : EReal :=
  max (agg (ix2 p k) * d (ix2 p (0 : Fin 1)) + b (ix2 (0 : Fin 1) k)) (Ideal.ofBits .f32 0x00000000#32)

/-- Entry (p, q) of the next layer's transform: the rectified rows times w, scaled by the row's factor s(p). -/
def nextTransform (agg : (⟨2, ![a, K]⟩ : Shape).Idx → EReal) (d : (⟨2, ![a, 1]⟩ : Shape).Idx → EReal)
    (b : (⟨2, ![1, K]⟩ : Shape).Idx → EReal) (w : (⟨2, ![K, N]⟩ : Shape).Idx → EReal)
    (s : (⟨2, ![a, 1]⟩ : Shape).Idx → EReal) (p : Fin a) (q : Fin N) : EReal :=
  (∑ k : Fin K, rectified agg d b p k * w (ix2 k q)) * s (ix2 p (0 : Fin 1))

/-- Entry (p, q) of the final linear layer: the rectified rows times w, plus the column's bias c(q). -/
def logits (agg : (⟨2, ![a, K]⟩ : Shape).Idx → EReal) (d : (⟨2, ![a, 1]⟩ : Shape).Idx → EReal)
    (b : (⟨2, ![1, K]⟩ : Shape).Idx → EReal) (w : (⟨2, ![K, N]⟩ : Shape).Idx → EReal)
    (c : (⟨2, ![1, N]⟩ : Shape).Idx → EReal) (p : Fin a) (q : Fin N) : EReal :=
  (∑ k : Fin K, rectified agg d b p k * w (ix2 k q)) + c (ix2 (0 : Fin 1) q)

/-! ## Each entry depends on one row of the operands

Row p of a layer's result depends on row p of the row-indexed operands only, and column q on column q of the
column-indexed ones.  So a layer computed on a block of rows agrees, row by row, with the layer computed on whole arrays. -/

section Rows

variable {a' : Nat}

theorem scaledProduct_eq {x : (⟨2, ![a, K]⟩ : Shape).Idx → EReal} {x' : (⟨2, ![a', K]⟩ : Shape).Idx → EReal}
    {w w' : (⟨2, ![K, N]⟩ : Shape).Idx → EReal} {s : (⟨2, ![a, 1]⟩ : Shape).Idx → EReal}
    {s' : (⟨2, ![a', 1]⟩ : Shape).Idx → EReal} {p : Fin a} {p' : Fin a'} {q q' : Fin N}
    (hx : ∀ k, x (ix2 p k) = x' (ix2 p' k)) (hw : ∀ k, w (ix2 k q) = w' (ix2 k q'))
    (hs : s (ix2 p (0 : Fin 1)) = s' (ix2 p' (0 : Fin 1))) :
    scaledProduct x w s p q = scaledProduct x' w' s' p' q' := by
  unfold scaledProduct
  rw [hs]
  exact congrArg (· * s' (ix2 p' (0 : Fin 1))) (Finset.sum_congr rfl fun k _ => by rw [hx k, hw k])

theorem rectified_eq {agg : (⟨2, ![a, K]⟩ : Shape).Idx → EReal} {agg' : (⟨2, ![a', K]⟩ : Shape).Idx → EReal}
    {d : (⟨2, ![a, 1]⟩ : Shape).Idx → EReal} {d' : (⟨2, ![a', 1]⟩ : Shape).Idx → EReal}
    {b b' : (⟨2, ![1, K]⟩ : Shape).Idx → EReal} {p : Fin a} {p' : Fin a'} (k : Fin K)
    (hagg : agg (ix2 p k) = agg' (ix2 p' k)) (hd : d (ix2 p (0 : Fin 1)) = d' (ix2 p' (0 : Fin 1)))
    (hb : b (ix2 (0 : Fin 1) k) = b' (ix2 (0 : Fin 1) k)) :
    rectified agg d b p k = rectified agg' d' b' p' k := by
  unfold rectified
  rw [hagg, hd, hb]

theorem nextTransform_eq {agg : (⟨2, ![a, K]⟩ : Shape).Idx → EReal} {agg' : (⟨2, ![a', K]⟩ : Shape).Idx → EReal}
    {d : (⟨2, ![a, 1]⟩ : Shape).Idx → EReal} {d' : (⟨2, ![a', 1]⟩ : Shape).Idx → EReal}
    {b b' : (⟨2, ![1, K]⟩ : Shape).Idx → EReal} {w w' : (⟨2, ![K, N]⟩ : Shape).Idx → EReal}
    {s : (⟨2, ![a, 1]⟩ : Shape).Idx → EReal} {s' : (⟨2, ![a', 1]⟩ : Shape).Idx → EReal}
    {p : Fin a} {p' : Fin a'} {q q' : Fin N}
    (hagg : ∀ k, agg (ix2 p k) = agg' (ix2 p' k)) (hd : d (ix2 p (0 : Fin 1)) = d' (ix2 p' (0 : Fin 1)))
    (hb : ∀ k, b (ix2 (0 : Fin 1) k) = b' (ix2 (0 : Fin 1) k)) (hw : ∀ k, w (ix2 k q) = w' (ix2 k q'))
    (hs : s (ix2 p (0 : Fin 1)) = s' (ix2 p' (0 : Fin 1))) :
    nextTransform agg d b w s p q = nextTransform agg' d' b' w' s' p' q' := by
  unfold nextTransform
  rw [hs]
  exact congrArg (· * s' (ix2 p' (0 : Fin 1)))
    (Finset.sum_congr rfl fun k _ => by rw [rectified_eq k (hagg k) hd (hb k), hw k])

theorem logits_eq {agg : (⟨2, ![a, K]⟩ : Shape).Idx → EReal} {agg' : (⟨2, ![a', K]⟩ : Shape).Idx → EReal}
    {d : (⟨2, ![a, 1]⟩ : Shape).Idx → EReal} {d' : (⟨2, ![a', 1]⟩ : Shape).Idx → EReal}
    {b b' : (⟨2, ![1, K]⟩ : Shape).Idx → EReal} {w w' : (⟨2, ![K, N]⟩ : Shape).Idx → EReal}
    {c c' : (⟨2, ![1, N]⟩ : Shape).Idx → EReal} {p : Fin a} {p' : Fin a'} (q : Fin N)
    (hagg : ∀ k, agg (ix2 p k) = agg' (ix2 p' k)) (hd : d (ix2 p (0 : Fin 1)) = d' (ix2 p' (0 : Fin 1)))
    (hb : ∀ k, b (ix2 (0 : Fin 1) k) = b' (ix2 (0 : Fin 1) k)) (hw : ∀ k, w (ix2 k q) = w' (ix2 k q))
    (hc : c (ix2 (0 : Fin 1) q) = c' (ix2 (0 : Fin 1) q)) :
    logits agg d b w c p q = logits agg' d' b' w' c' p' q := by
  unfold logits
  rw [hc]
  exact congrArg (· + c' (ix2 (0 : Fin 1) q))
    (Finset.sum_congr rfl fun k _ => by rw [rectified_eq k (hagg k) hd (hb k), hw k])

end Rows

end Cert.Layers

end
-- ==== Proof.LibDotEntry.lean ====
/-
  A matrix product read at an entry, on the host and on the TensorCore. At exact arithmetic the host's `dot_general` of an m×K matrix by a K×n
  matrix, whose dimension numbers contract the left factor's columns against the right factor's rows, has at entry
  (p, q) the sum over k of left (p, k) · right (k, q) — the same sum a TensorCore matrix product into a zero
  accumulator has there. Stated for any dimension record of these three shapes, given where it sends an output index
  and a contraction index.
-/
import Idealize.ShloMosaic.Lib.ValueIdx
import Idealize.ShloMosaic.PureOps.Ideal.Laws

noncomputable section

namespace Cert.Lib.DotEntry

open Idealize.ShloMosaic Idealize.ShloMosaic.TcCoe Idealize.SL.Sem Idealize.ShloMosaic.ValueIdx

/-- The host's product of an m×K by a K×n matrix, read at entry (p, q), is the sum over the one contracted axis of
    the products of row p of the left factor with column q of the right factor. The four hypotheses say where the
    product's dimension numbers send an output index and a contraction index: to (row, k) on the left and
    (k, column) on the right. -/
theorem dotGeneral_ix2 {m K n : Nat} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ .f32) (rhs : FVec Ideal ⟨2, ![K, n]⟩ .f32) (p : Fin m) (q : Fin n) :
    Host.dotGeneral (F := Ideal) D none lhs rhs (ix2 p q) = ∑ k : Fin K, lhs (ix2 p k) * rhs (ix2 k q) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A TensorCore product of an m×K by a K×n matrix (of any two float formats: at exact arithmetic a format is only a
    label) into a zero accumulator, read at entry (p, q), is the same sum. -/
theorem matmul_zero_ix2 {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (c ⟨0, by omega⟩).val)
    (hr1 : ∀ (i : (⟨2, ![m, n]⟩ : Shape).Idx) (c : D.contr.Idx), (D.rhsIdx i c 1).val = (i 1).val)
    (lhs : FVec Ideal ⟨2, ![m, K]⟩ φ₁) (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Cert.Lib.DotEntry

end
-- ==== Proof.LibMatDims.lean ====
/-
  The dimension numbers of a plain matrix product, read at an entry.

  A product of an m×K matrix by a K×n matrix that contracts the left factor's columns against the right factor's rows,
  with no batch axes, reads — at output entry (p, q) and contraction position k — the left factor at (p, k) and the
  right factor at (k, q).  These are the four index facts the entry-wise reading of a product asks for, derived once
  from the lists of the dimension record instead of per record.
-/
import Idealize.ShloMosaic.PureOps.Dims

noncomputable section

namespace Cert.Lib.MatDims

open Idealize.ShloMosaic

variable {m K n : Nat} (D : DotDims ⟨2, ![m, K]⟩ ⟨2, ![K, n]⟩ ⟨2, ![m, n]⟩)

/-- One contracted axis. -/
theorem contr_rank (hc : D.lhsContracting = [1]) : D.contr.rank = 1 := by
  rw [D.rank_contr, hc]; rfl

/-- Its extent is the left factor's column count. -/
theorem contr_size (hc : D.lhsContracting = [1]) :
    D.contr.size ⟨0, by rw [contr_rank D hc]; exact Nat.one_pos⟩ = K := by
  rw [D.size_contr 0 (by rw [hc]; exact Nat.one_pos)]
  simp only [hc]
  rfl

/-- The left factor's row is the output's row. -/
theorem lhs_row (hb : D.lhsBatch = []) (hn : D.lhsNonContracting = [0])
    (i : (⟨2, ![m, n]⟩ : Shape).Idx) (c : D.contr.Idx) : (D.lhsIdx i c 0).val = (i 0).val := by
  unfold DotDims.lhsIdx
  rw [dif_neg (by rw [hb]; exact List.not_mem_nil), dif_pos (by rw [hn]; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn])

/-- The left factor's column is the contraction position. -/
theorem lhs_col (hc : D.lhsContracting = [1]) (i : (⟨2, ![m, n]⟩ : Shape).Idx) (c : D.contr.Idx) :
    (D.lhsIdx i c 1).val = (c ⟨0, by rw [contr_rank D hc]; exact Nat.one_pos⟩).val :=
  D.lhsIdx_val_of_single hc i c

/-- The right factor's row is the contraction position. -/
theorem rhs_row (hc : D.lhsContracting = [1]) (hc' : D.rhsContracting = [0]) (i : (⟨2, ![m, n]⟩ : Shape).Idx)
    (c : D.contr.Idx) : (D.rhsIdx i c 0).val = (c ⟨0, by rw [contr_rank D hc]; exact Nat.one_pos⟩).val :=
  D.rhsIdx_val_of_single hc' i c

/-- The right factor's column is the output's column. -/
theorem rhs_col (hb : D.lhsBatch = []) (hb' : D.rhsBatch = []) (hn : D.lhsNonContracting = [0])
    (hn' : D.rhsNonContracting = [1]) (i : (⟨2, ![m, n]⟩ : Shape).Idx) (c : D.contr.Idx) :
    (D.rhsIdx i c 1).val = (i 1).val := by
  unfold DotDims.rhsIdx
  rw [dif_neg (by rw [hb']; exact List.not_mem_nil), dif_pos (by rw [hn']; exact List.mem_singleton.mpr rfl)]
  simp only [Fin.val_cast]
  have key : ∀ (p q : Nat) (hp : p < (⟨2, ![m, n]⟩ : Shape).rank) (hq : q < (⟨2, ![m, n]⟩ : Shape).rank), p = q →
      (i ⟨p, hp⟩).val = (i ⟨q, hq⟩).val := fun p q hp hq h => by subst h; rfl
  exact key _ _ _ _ (by simp [hb, hn, hn'])

end Cert.Lib.MatDims

end
-- ==== Proof.LibDenseLayer.lean ====
/-
  A dense layer as a TensorCore kernel computes it and as the host computes it, each read at an entry.

  The kernel multiplies an m×K block by a K×n weight matrix into a zero accumulator, casts the length-n bias to a
  [1, n] row, repeats the row down the m rows and adds.  The host takes the dot_general of the two matrices, lays the bias
  out as a [1, n] row and then as an [m, n] matrix by two broadcast_in_dim, and adds.  At exact arithmetic entry (p, q) of
  either result is (Σₖ left(p, k)·right(k, q)) + bias(q), whatever float formats the kernel's two factors carry.
-/
import Idealize.ShloMosaic.Lib.ValueIdx
import Idealize.ShloMosaic.Lib.ValueLayout
import Idealize.ShloMosaic.Lib.Pipeline.Value
import Idealize.ShloMosaic.PureOps.Ideal.Laws
import proofs.«102556_j18459769438249_2_alg».proof.Proof.LibDotEntry
import proofs.«102556_j18459769438249_2_alg».proof.Proof.LibMatDims

noncomputable section

namespace Cert.Lib.DenseLayer

open Idealize.ShloMosaic Idealize.ShloMosaic.TcCoe Idealize.SL.Sem Idealize.ShloMosaic.ValueIdx

/-- The dimension numbers of a plain matrix product: contract the left factor's columns against the right factor's
    rows; no batch axes. -/
structure IsMatProduct {m K n : Nat} (D : DotDims ⟨2, ![m, K]⟩ ⟨2, ![K, n]⟩ ⟨2, ![m, n]⟩) : Prop where
  lhsBatch : D.lhsBatch = []
  rhsBatch : D.rhsBatch = []
  lhsNon : D.lhsNonContracting = [0]
  rhsNon : D.rhsNonContracting = [1]
  lhsContr : D.lhsContracting = [1]
  rhsContr : D.rhsContracting = [0]

variable {m K n : Nat} {D : DotDims ⟨2, ![m, K]⟩ ⟨2, ![K, n]⟩ ⟨2, ![m, n]⟩}

/-- A TensorCore product into a zero accumulator at entry (p, q): the sum over k of left(p, k)·right(k, q). -/
theorem matmul_entry (hD : IsMatProduct D) {φ₁ φ₂ : FTy} (lhs : FVec Ideal ⟨2, ![m, K]⟩ φ₁)
    (rhs : FVec Ideal ⟨2, ![K, n]⟩ φ₂) (p : Fin m) (q : Fin n) :
    matmul D none lhs rhs (constant (F := Ideal) ⟨2, ![m, n]⟩ .f32 0x00000000#32) (ix2 p q)
      = ∑ k : Fin K, lhs (ix2 p k) * rhs (ix2 k q) :=
  Cert.Lib.DotEntry.matmul_zero_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The host's product at entry (p, q): the same sum. -/
theorem dotGeneral_entry (hD : IsMatProduct D) (lhs : FVec Ideal ⟨2, ![m, K]⟩ .f32)
    (rhs : FVec Ideal ⟨2, ![K, n]⟩ .f32) (p : Fin m) (q : Fin n) :
    Host.dotGeneral (F := Ideal) D none lhs rhs (ix2 p q) = ∑ k : Fin K, lhs (ix2 p k) * rhs (ix2 k q) :=
  Cert.Lib.DotEntry.dotGeneral_ix2 D (Cert.Lib.MatDims.contr_rank D hD.lhsContr) (Cert.Lib.MatDims.contr_size D hD.lhsContr)
    (Cert.Lib.MatDims.lhs_row D hD.lhsBatch hD.lhsNon) (Cert.Lib.MatDims.lhs_col D hD.lhsContr)
    (Cert.Lib.MatDims.rhs_row D hD.lhsContr hD.rhsContr)
    (Cert.Lib.MatDims.rhs_col D hD.lhsBatch hD.rhsBatch hD.lhsNon hD.rhsNon) lhs rhs p q

/-- The bias as the kernel lays it out — cast to a [1, n] row, the row repeated down m rows — at entry (p, q): bias(q). -/
theorem bias_entry {φ : FTy} (b : FVec Ideal ⟨1, ![n]⟩ φ) (hsc : (⟨1, ![n]⟩ : Shape).ShapeCasts ⟨2, ![1, n]⟩)
    (hbc : (⟨2, ![1, n]⟩ : Shape).Broadcasts ⟨2, ![m, n]⟩) (p : Fin m) (q : Fin n) :
    broadcastTo ⟨2, ![m, n]⟩ (shapeCast ⟨2, ![1, n]⟩ b hsc) hbc (ix2 p q) = b (ix1 q) :=
  (broadcastTo_1b_ab_apply _ hbc p q).trans (shapeCast_a_1a_apply b hsc 0 q)

/-- The kernel's dense layer at entry (p, q). -/
theorem dense_entry (hD : IsMatProduct D) {φ₁ φ₂ : FTy} (lhs : FVec Ideal ⟨2, ![m, K]⟩ φ₁)
    (rhs : FVec Ideal ⟨2, ![K, n]⟩ φ₂) (b : FVec Ideal ⟨1, ![n]⟩ .f32)
    (hsc : (⟨1, ![n]⟩ : Shape).ShapeCasts ⟨2, ![1, n]⟩) (hbc : (⟨2, ![1, n]⟩ : Shape).Broadcasts ⟨2, ![m, n]⟩)
    (p : Fin m) (q : Fin n) :
    addf (matmul D none lhs rhs (constant (F := Ideal) ⟨2, ![m, n]⟩ .f32 0x00000000#32))
        (broadcastTo ⟨2, ![m, n]⟩ (shapeCast ⟨2, ![1, n]⟩ b hsc) hbc) (ix2 p q)
      = (∑ k : Fin K, lhs (ix2 p k) * rhs (ix2 k q)) + b (ix1 q) := by
  rw [addf_apply, matmul_entry hD, bias_entry]

/-- The bias as the host lays it out — to a [1, n] row along axis 1, then to [m, n] along both axes — at entry (p, q):
    bias(q). -/
theorem host_bias_entry {α : Type} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    broadcastInDim ⟨2, ![m, n]⟩ ![0, 1] h₂ (broadcastInDim ⟨2, ![1, n]⟩ ![1] h₁ b) (ix2 p q) = b (ix1 q) := by
  refine (broadcastInDim_apply _ h₂ _ (ix2 p q) (ix2 (0 : Fin 1) q) fun ax => ?_).trans ?_
  · match ax with
    | ⟨0, _⟩ => rfl
    | ⟨1, _⟩ =>
      show q.val = if n = 1 then 0 else q.val
      split
      · have := q.isLt; omega
      · rfl
  · refine broadcastInDim_apply _ h₁ b (ix2 (0 : Fin 1) q) (ix1 q) fun ax => ?_
    match ax with
    | ⟨0, _⟩ =>
      show q.val = if n = 1 then 0 else q.val
      split
      · have := q.isLt; omega
      · rfl

/-- The host's dense layer at entry (p, q). -/
theorem host_dense_entry (hD : IsMatProduct D) (lhs : FVec Ideal ⟨2, ![m, K]⟩ .f32) (rhs : FVec Ideal ⟨2, ![K, n]⟩ .f32)
    (b : FVec Ideal ⟨1, ![n]⟩ .f32)
    (h₁ : (⟨1, ![n]⟩ : Shape).BroadcastsInDim ⟨2, ![1, n]⟩ (![1] : Fin 1 → Fin 2))
    (h₂ : (⟨2, ![1, n]⟩ : Shape).BroadcastsInDim ⟨2, ![m, n]⟩ (![0, 1] : Fin 2 → Fin 2)) (p : Fin m) (q : Fin n) :
    addf (Host.dotGeneral (F := Ideal) D none lhs rhs)
        (broadcastInDim ⟨2, ![m, n]⟩ ![0, 1] h₂ (broadcastInDim ⟨2, ![1, n]⟩ ![1] h₁ b)) (ix2 p q)
      = (∑ k : Fin K, lhs (ix2 p k) * rhs (ix2 k q)) + b (ix1 q) := by
  rw [addf_apply, dotGeneral_entry hD, host_bias_entry]

end Cert.Lib.DenseLayer

end
-- ==== Proof.LibRowOps.lean ====
/-
  Row-wise building blocks of a `keepdims` normalisation, each read at an entry, at exact arithmetic.

  A kernel that divides every row of an [a, b] block by the row's sum builds the divisor in three steps: the lane
  sum [a, b] → [a], the cast [a] → [a, 1] that restores the dropped axis as a unit axis, and the broadcast
  [a, 1] → [a, b] that repeats each row's sum along the row. Read at entry (p, c) the three steps compose to
  `Σₖ x(p, k)`. Beside them: a matrix product of an [m, K] block by an [n, K] block that contracts the two trailing
  axes (the right factor stored row-per-output-column), into a zero accumulator, read at entry (p, q) as
  `Σₖ left(p, k) · right(q, k)`.
-/
import Idealize.ShloMosaic.Lib.ValueIdx
import Idealize.ShloMosaic.Lib.Pipeline.Value
import Idealize.ShloMosaic.PureOps.Ideal.Laws

noncomputable section

namespace Cert.Lib.RowOps

open Idealize.ShloMosaic Idealize.ShloMosaic.TcCoe Idealize.SL.Sem Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` block over its second axis, read at row `p`, is the sum of the row's entries. -/
theorem multiReduction_add_lanes {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction (F := Ideal) .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- The three steps composed: the row sum, kept as a unit axis and repeated along the row, read at `(p, c)`. -/
theorem rowSum_keepdims_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (c : Fin b) :
    broadcastTo ⟨2, ![a, b]⟩ (shapeCast ⟨2, ![a, 1]⟩ (multiReduction (F := Ideal) .add [1] ⟨1, ![a]⟩ src acc h hφ hacc) hc) hb (ix2 p c)
      = ∑ k : Fin b, src (ix2 p k) :=
  (broadcastTo_a1_ab_apply _ hb p c).trans ((shapeCast_a_a1_apply _ hc p 0).trans (multiReduction_add_lanes src acc h hφ hacc p))

/-- A TensorCore product of an m×K block by an n×K block contracting the two trailing axes, into a zero accumulator,
    read at entry (p, q): the sum over k of left (p, k) · right (q, k). The four hypotheses say where the product's
    dimension numbers send an output index and a contraction index: to (row, k) on the left and (column, k) on the
    right. -/
theorem matmul_nt_zero_ix2 {m K n : Nat} {φ₁ φ₂ : FTy} (D : DotDims ⟨2, ![m, K]⟩ ⟨2, ![n, K]⟩ ⟨2, ![m, n]⟩)
    (hr : D.contr.rank = 1) (hs : D.contr.size ⟨0, by omega⟩ = K)
    (hl0 : ∀ (i : (⟨2, ![m, n]⟩ : Shape).Idx) (c : D.contr.Idx), (D.lhsIdx i c 0).val = (i 0).val)
    (hl1 : ∀ (i : (⟨2, ![m, n]⟩ : Shape).Idx) (c : D.contr.Idx), (D.lhsIdx i c 1).val = (c ⟨0, by omega⟩).val)
    (hr0 : ∀ (i : (⟨2, ![m, n]⟩ : Shape).Idx) (c : D.contr.Idx), (D.rhsIdx i c 0).val = (i 1).val)
    (hr1 : ∀ (i : (⟨2, ![m, n]⟩ : Shape).Idx) (c : D.contr.Idx), (D.rhsIdx i c 1).val = (c ⟨0, by omega⟩).val)
    (lhs : FVec Ideal ⟨2, ![m, K]⟩ φ₁) (rhs : FVec Ideal ⟨2, ![n, K]⟩ φ₂) (p : Fin m) (q : Fin n) :
    matmul D none lhs rhs (constant (F := Ideal) ⟨2, ![m, n]⟩ .f32 0x00000000#32) (ix2 p q)
      = ∑ k : Fin K, lhs (ix2 p k) * rhs (ix2 q k) := by
  refine (Ideal.matmul_constant_zero_apply D none lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.Lib.RowOps

end
-- ==== Proof.LibRowSoftmax.lean ====
/-
  The row-wise log-softmax of an [a, N] array at exact arithmetic, read at an entry.

  `logSoftmax L` is, at (p, q), the entry minus its row's maximum (taken from minus infinity), minus the logarithm of the
  row's sum of exponentials of those differences.  A TensorCore body spells it with lane reductions: the lane maximum of
  each row kept as a unit axis, repeated along the row and subtracted; the exponentials summed along the row, the logarithm
  of the sum kept, repeated and subtracted (`softmaxBlock`); read at an entry that is `logSoftmax` of the block's entries
  (`softmaxBlock_entry`).  A lane maximum read at a row is the running maximum of the row's entries from the
  accumulator's value (`multiReduction_max_lanes`); taking the maximum with minus infinity once more changes nothing
  (`max_bot_rowMax`); and row p of the result depends on row p of the array only (`logSoftmax_eq`), so the log-softmax of
  a block of rows is that block of the log-softmax of the whole array.
-/
import Idealize.ShloMosaic.Lib.ValueIdx
import Idealize.ShloMosaic.Lib.Pipeline.Value
import Idealize.ShloMosaic.PureOps.Ideal.Laws
import proofs.«102556_j18459769438249_2_alg».proof.Proof.LibRowOps

noncomputable section

namespace Cert.Lib.RowSoftmax

open Idealize.ShloMosaic Idealize.ShloMosaic.TcCoe Idealize.SL.Sem Idealize.ShloMosaic.ValueIdx
open Cert.Lib.RowOps

variable {a a' N : Nat}

/-- The maximum of row p, taken from minus infinity. -/
def rowMax (L : Fin a → Fin N → EReal) (p : Fin a) : EReal :=
  (Finset.univ : Finset (Fin N)).fold max (Ideal.ofBits .f32 0xFF800000#32) (fun q => L p q)

/-- Entry (p, q) of the row-wise log-softmax: the entry minus its row's maximum, minus the logarithm of the row's sum of
    exponentials of those differences. -/
def logSoftmax (L : Fin a → Fin N → EReal) (p : Fin a) (q : Fin N) : EReal :=
  (L p q - rowMax L p) - Ideal.log (∑ r : Fin N, Ideal.exp (L p r - rowMax L p))

/-- The row maximum taken from minus infinity is at least minus infinity, so taking its maximum with minus infinity once
    more changes nothing. -/
theorem max_bot_rowMax (L : Fin a → Fin N → EReal) (p : Fin a) :
    max (Ideal.ofBits .f32 0xFF800000#32) (rowMax L p) = rowMax L p :=
  max_eq_right ((Finset.le_fold_max (s := (Finset.univ : Finset (Fin N))) (f := fun q => L p q) _).2 (Or.inl le_rfl))

/-- Row p of the log-softmax depends on row p of the array only. -/
theorem logSoftmax_eq {L : Fin a → Fin N → EReal} {L' : Fin a' → Fin N → EReal} {p : Fin a} {p' : Fin a'} (q : Fin N)
    (h : ∀ r, L p r = L' p' r) : logSoftmax L p q = logSoftmax L' p' q := by
  have hm : rowMax L p = rowMax L' p' := by
    unfold rowMax
    exact Finset.fold_congr fun r _ => h r
  unfold logSoftmax
  rw [hm, h q]
  exact congrArg (L' p' q - rowMax L' p' - Ideal.log ·) (Finset.sum_congr rfl fun r _ => by rw [h r])

/-- A lane maximum of an [a, b] block over its second axis, read at row p: the running maximum of the row's entries from
    the accumulator's value. -/
theorem multiReduction_max_lanes {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (p : Fin a) :
    multiReduction (F := Ideal) .maximumf [1] ⟨1, ![a]⟩ src acc h hφ hacc (ix1 p)
      = (Finset.univ : Finset (Fin b)).fold max (Ideal.ofBits .f32 acc) (fun k => src (ix2 p k)) := by
  refine (Ideal.multiReduction_maximumf_single src acc h hφ hacc (ix1 p)).trans ?_
  refine Finset.fold_congr fun k _ => congrArg src ?_
  funext c; apply Fin.ext
  match c with
  | ⟨0, _⟩ => rfl
  | ⟨1, _⟩ => rfl

/-- The log-softmax of each row as a body spells it — the lane maximum kept as a unit axis, repeated along the row and
    subtracted; the exponentials summed along the row, the logarithm of the sum kept, repeated and subtracted — read at
    entry (p, q). -/
def softmaxBlock {a N : ℕ} (X : FVec Ideal ⟨2, ![a, N]⟩ .f32) (h : (⟨2, ![a, N]⟩ : Shape).Reduces [1] ⟨1, ![a]⟩)
    (hc : (⟨1, ![a]⟩ : Shape).ShapeCasts ⟨2, ![a, 1]⟩) (hb : (⟨2, ![a, 1]⟩ : Shape).Broadcasts ⟨2, ![a, N]⟩) :
    FVec Ideal ⟨2, ![a, N]⟩ .f32 :=
  subf (subf X (broadcastTo ⟨2, ![a, N]⟩ (shapeCast ⟨2, ![a, 1]⟩ (multiReduction .maximumf [1] ⟨1, ![a]⟩ X 0xFF800000#32 h (.inl rfl) rfl) hc) hb))
    (broadcastTo ⟨2, ![a, N]⟩ (log (shapeCast ⟨2, ![a, 1]⟩ (multiReduction .add [1] ⟨1, ![a]⟩
      (exp (subf X (broadcastTo ⟨2, ![a, N]⟩ (shapeCast ⟨2, ![a, 1]⟩ (multiReduction .maximumf [1] ⟨1, ![a]⟩ X 0xFF800000#32 h (.inl rfl) rfl) hc) hb)))
      0x00000000#32 h (.inl rfl) rfl) hc)) hb)

/-- Read at entry (p, q), the block a body forms this way is the log-softmax of the block's entries. -/
theorem softmaxBlock_entry {a N : ℕ} (X : FVec Ideal ⟨2, ![a, N]⟩ .f32) (h : (⟨2, ![a, N]⟩ : Shape).Reduces [1] ⟨1, ![a]⟩)
    (hc : (⟨1, ![a]⟩ : Shape).ShapeCasts ⟨2, ![a, 1]⟩) (hb : (⟨2, ![a, 1]⟩ : Shape).Broadcasts ⟨2, ![a, N]⟩)
    (p : Fin a) (q : Fin N) :
    softmaxBlock X h hc hb (ix2 p q) = logSoftmax (fun p q => X (ix2 p q)) p q := by
  have hmax : ∀ r : Fin N, broadcastTo ⟨2, ![a, N]⟩ (shapeCast ⟨2, ![a, 1]⟩
      (multiReduction (F := Ideal) .maximumf [1] ⟨1, ![a]⟩ X 0xFF800000#32 h (.inl rfl) rfl) hc) hb (ix2 p r)
      = rowMax (fun p q => X (ix2 p q)) p := fun r =>
    (broadcastTo_a1_ab_apply _ hb p r).trans ((shapeCast_a_a1_apply _ hc p 0).trans
      (multiReduction_max_lanes X 0xFF800000#32 h (.inl rfl) rfl p))
  unfold softmaxBlock logSoftmax
  rw [subf_apply, subf_apply, hmax q, broadcastTo_a1_ab_apply]
  refine congrArg (X (ix2 p q) - rowMax (fun p q => X (ix2 p q)) p - ·) ?_
  show Ideal.log (shapeCast ⟨2, ![a, 1]⟩ _ hc (ix2 p (0 : Fin 1))) = _
  rw [shapeCast_a_a1_apply _ hc p 0]
  refine congrArg Ideal.log ((multiReduction_add_lanes _ _ h _ _ p).trans (Finset.sum_congr rfl fun r _ => ?_))
  show Ideal.exp (X (ix2 p r) - _) = _
  rw [hmax r]

end Cert.Lib.RowSoftmax

end
-- ==== Proof.Bodies.lean ====
/-
  What each of the three kernel bodies stores, read at an entry of its output block, at exact arithmetic.

  Body 0 multiplies a block of 4000 rows of features by the whole first weight matrix and scales each row.
  Body 1 scales a block of 4000 aggregated rows by rows, adds the bias by columns, rectifies, multiplies by the whole
  second weight matrix and scales each row.  Body 2 does the same up to the product for 2000 rows, adds the last bias
  and takes the log-softmax of each row: it subtracts the row's maximum, then the logarithm of the row's sum of
  exponentials.  Changes of float format are the identity at exact arithmetic, a product into a zero accumulator is
  the plain sum over the contracted axis, a lane reduction is the sum (or the running maximum from minus infinity) over
  the row, and a column kept as a unit axis and repeated along the row reads the column's entry of that row.
-/
import proofs.«102556_j18459769438249_2_alg».proof.Proof.Gen.KernelIdeal.Skeleton
import proofs.«102556_j18459769438249_2_alg».proof.Proof.Layers
import proofs.«102556_j18459769438249_2_alg».proof.Proof.LibDenseLayer
import proofs.«102556_j18459769438249_2_alg».proof.Proof.LibRowOps
import proofs.«102556_j18459769438249_2_alg».proof.Proof.LibRowSoftmax
import Idealize.ShloMosaic.Lib.ValueIdx
import Idealize.ShloMosaic.Lib.Pipeline.Value
import Idealize.ShloMosaic.PureOps.Ideal.Laws

noncomputable section

namespace Cert.KernelIdeal.Bodies

open Cert.KernelIdeal Cert.KernelIdeal.Gen Cert.Layers
open Idealize.ShloMosaic Idealize.ShloMosaic.TcCoe Idealize.SL.Sem Idealize.ShloMosaic.ValueIdx
open Cert.Lib.DenseLayer Cert.Lib.RowOps Cert.Lib.RowSoftmax

/-! ## A general reading -/

/-- The aggregate scaled by a column of row factors, biased by a row of column biases and rectified, as a body spells it
    (each operand first cast to its own shape), read at entry (p, k). -/
theorem rect_entry {a K : Nat} (v0 : FVec Ideal ⟨2, ![a, K]⟩ .f32) (v2 : FVec Ideal ⟨2, ![a, 1]⟩ .f32)
    (v6 : FVec Ideal ⟨2, ![1, K]⟩ .f32) (h0 : (⟨2, ![a, K]⟩ : Shape).ShapeCasts ⟨2, ![a, K]⟩)
    (h2 : (⟨2, ![a, 1]⟩ : Shape).ShapeCasts ⟨2, ![a, 1]⟩) (hb2 : (⟨2, ![a, 1]⟩ : Shape).Broadcasts ⟨2, ![a, K]⟩)
    (h6 : (⟨2, ![1, K]⟩ : Shape).ShapeCasts ⟨2, ![1, K]⟩) (hb6 : (⟨2, ![1, K]⟩ : Shape).Broadcasts ⟨2, ![a, K]⟩)
    (p : Fin a) (k : Fin K) :
    maximumf (addf (mulf (shapeCast ⟨2, ![a, K]⟩ v0 h0) (broadcastTo ⟨2, ![a, K]⟩ (shapeCast ⟨2, ![a, 1]⟩ v2 h2) hb2))
        (broadcastTo ⟨2, ![a, K]⟩ (shapeCast ⟨2, ![1, K]⟩ v6 h6) hb6))
      (broadcast ⟨2, ![a, K]⟩ (Scalar.ofBits (F := Ideal) .f32 0x00000000#32)) (ix2 p k)
      = rectified v0 v2 v6 p k := by
  rw [maximumf_apply, addf_apply, mulf_apply, broadcastTo_a1_ab_apply, broadcastTo_1b_ab_apply, shapeCast_self, shapeCast_self,
    shapeCast_self]
  rfl

/-! ## The three bodies -/

theorem isMat0 : IsMatProduct dot_S4000x256_S256x128_S4000x128_1_0_0_1_n_n := ⟨rfl, rfl, rfl, rfl, rfl, rfl⟩
theorem isMat1 : IsMatProduct dot_S4000x128_S128x64_S4000x64_1_0_0_1_n_n := ⟨rfl, rfl, rfl, rfl, rfl, rfl⟩
theorem isMat2 : IsMatProduct dot_S2000x64_S64x200_S2000x200_1_0_0_1_n_n := ⟨rfl, rfl, rfl, rfl, rfl, rfl⟩

/-- Body 0 stores, at entry (p, q) of its block, the product's entry scaled by the row's factor. -/
theorem body0_entry (x0 : Vec Ideal S4000x256 .f32) (x1 : Vec Ideal S256x128 .f32) (x2 : Vec Ideal S4000x1 .f32)
    (p : Fin 4000) (q : Fin 128) :
    k0_pay1 (F := Ideal) x0 x1 x2 (ix2 p q) = scaledProduct x0 x1 x2 p q := by
  show matmul dot_S4000x256_S256x128_S4000x128_1_0_0_1_n_n none (truncf .bf16 x0 bitsLt_bf16_f32) (truncf .bf16 x1 bitsLt_bf16_f32)
        (constant (F := Ideal) S4000x128 .f32 0x00000000#32) (ix2 p q)
      * broadcastTo S4000x128 (shapeCast S4000x1 x2 shapeCasts_S4000x1_S4000x1) broadcasts_S4000x1_S4000x128 (ix2 p q) = _
  rw [matmul_entry isMat0, broadcastTo_a1_ab_apply, shapeCast_self]
  rfl

/-- Body 1 stores, at entry (p, q) of its block, the next layer's transform of the rectified rows. -/
theorem body1_entry (v0 : Vec Ideal S4000x128 .f32) (v2 : Vec Ideal S4000x1 .f32) (v6 : Vec Ideal S1x128 .f32)
    (v13 : Vec Ideal S128x64 .f32) (v16 : Vec Ideal S4000x1 .f32) (p : Fin 4000) (q : Fin 64) :
    k1_pay1 (F := Ideal) v0 v2 v6 v13 v16 (ix2 p q) = nextTransform v0 v2 v6 v13 v16 p q := by
  show matmul dot_S4000x128_S128x64_S4000x64_1_0_0_1_n_n none
        (truncf .bf16 (maximumf (addf (mulf (shapeCast S4000x128 v0 shapeCasts_S4000x128_S4000x128)
            (broadcastTo S4000x128 (shapeCast S4000x1 v2 shapeCasts_S4000x1_S4000x1) broadcasts_S4000x1_S4000x128))
            (broadcastTo S4000x128 (shapeCast S1x128 v6 shapeCasts_S1x128_S1x128) broadcasts_S1x128_S4000x128))
          (broadcast S4000x128 (Scalar.ofBits (F := Ideal) .f32 0x00000000#32))) bitsLt_bf16_f32)
        (truncf .bf16 v13 bitsLt_bf16_f32) (constant (F := Ideal) S4000x64 .f32 0x00000000#32) (ix2 p q)
      * broadcastTo S4000x64 (shapeCast S4000x1 v16 shapeCasts_S4000x1_S4000x1) broadcasts_S4000x1_S4000x64 (ix2 p q) = _
  rw [matmul_entry isMat1, broadcastTo_a1_ab_apply, shapeCast_self v16]
  unfold nextTransform
  refine congrArg (· * v16 (ix2 p (0 : Fin 1))) (Finset.sum_congr rfl fun k _ => congrArg (· * v13 (ix2 k q)) ?_)
  exact rect_entry v0 v2 v6 _ _ _ _ _ p k

/-- The block of logits body 2 forms before its softmax. -/
def logitsBlock (v0 : Vec Ideal S2000x64 .f32) (v2 : Vec Ideal S2000x1 .f32) (v6 : Vec Ideal S1x64 .f32)
    (v13 : Vec Ideal S64x200 .f32) (v16 : Vec Ideal S1x200 .f32) : FVec Ideal S2000x200 .f32 :=
  addf (matmul dot_S2000x64_S64x200_S2000x200_1_0_0_1_n_n none
      (truncf .bf16 (maximumf (addf (mulf (shapeCast S2000x64 v0 shapeCasts_S2000x64_S2000x64)
          (broadcastTo S2000x64 (shapeCast S2000x1 v2 shapeCasts_S2000x1_S2000x1) broadcasts_S2000x1_S2000x64))
          (broadcastTo S2000x64 (shapeCast S1x64 v6 shapeCasts_S1x64_S1x64) broadcasts_S1x64_S2000x64))
        (broadcast S2000x64 (Scalar.ofBits (F := Ideal) .f32 0x00000000#32))) bitsLt_bf16_f32)
      (truncf .bf16 v13 bitsLt_bf16_f32) (constant (F := Ideal) S2000x200 .f32 0x00000000#32))
    (broadcastTo S2000x200 (shapeCast S1x200 v16 shapeCasts_S1x200_S1x200) broadcasts_S1x200_S2000x200)

theorem logitsBlock_entry (v0 : Vec Ideal S2000x64 .f32) (v2 : Vec Ideal S2000x1 .f32) (v6 : Vec Ideal S1x64 .f32)
    (v13 : Vec Ideal S64x200 .f32) (v16 : Vec Ideal S1x200 .f32) (p : Fin 2000) (q : Fin 200) :
    logitsBlock v0 v2 v6 v13 v16 (ix2 p q) = logits v0 v2 v6 v13 v16 p q := by
  unfold logitsBlock logits
  rw [addf_apply, matmul_entry isMat2, broadcastTo_1b_ab_apply, shapeCast_self v16]
  refine congrArg (· + v16 (ix2 (0 : Fin 1) q)) (Finset.sum_congr rfl fun k _ => congrArg (· * v13 (ix2 k q)) ?_)
  exact rect_entry v0 v2 v6 _ _ _ _ _ p k

/-- Body 2 stores, at entry (p, q) of its block, the log-softmax of the row of logits. -/
theorem body2_entry (v0 : Vec Ideal S2000x64 .f32) (v2 : Vec Ideal S2000x1 .f32) (v6 : Vec Ideal S1x64 .f32)
    (v13 : Vec Ideal S64x200 .f32) (v16 : Vec Ideal S1x200 .f32) (p : Fin 2000) (q : Fin 200) :
    k2_pay1 (F := Ideal) v0 v2 v6 v13 v16 (ix2 p q) = logSoftmax (logits v0 v2 v6 v13 v16) p q := by
  show softmaxBlock (logitsBlock v0 v2 v6 v13 v16) reduces_S2000x200_S2000 shapeCasts_S2000_S2000x1 broadcasts_S2000x1_S2000x200 (ix2 p q) = _
  rw [softmaxBlock_entry]
  exact congrArg (fun L => logSoftmax L p q) (funext fun p' => funext fun q' => logitsBlock_entry v0 v2 v6 v13 v16 p' q')

end Cert.KernelIdeal.Bodies

end
-- ==== Proof.Region0.lean ====
/-
  Region 0 (the first transform), from blocks to the whole array.

  The grid has 25 points; point t reads rows 4000·t … 4000·t + 3999 of the features and of the column of out-degree
  scales, the whole first weight matrix, and writes rows 4000·t … 4000·t + 3999 of the output.  Entry (p, q) of the block
  it writes is the scaled product's entry (4000·t + p, q) of the WHOLE arrays, because row p of the block of features is
  row 4000·t + p of the features and the weight block is the whole matrix.  The 25 row blocks tile the 100000 rows, so
  after the region the output array is the scaled product of the arrays the region found, entry by entry.
-/
import proofs.«102556_j18459769438249_2_alg».proof.Proof.Gen.KernelIdeal.Frame
import proofs.«102556_j18459769438249_2_alg».proof.Proof.Bodies
import Idealize.ShloMosaic.Lib.Pipeline.Value

set_option maxRecDepth 16384

noncomputable section

namespace Cert.KernelIdeal.Region0

open Cert.KernelIdeal Cert.KernelIdeal.Gen Cert.Layers Cert.KernelIdeal.Bodies
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole output array: the product of the features by the weights, each row scaled. -/
def G (x : S100000x256.Idx → EReal) (w : S256x128.Idx → EReal) (s : S100000x1.Idx → EReal) : S100000x128.Idx → EReal :=
  fun i => scaledProduct x w s (i 0) (i 1)

/-- Where each window's block sits at point t: the row blocks of the features, of the scales and of the output move
    together, the weight matrix stays, and every column block index is 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every row block of the output is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- What point t writes back is block t of the whole-array function of the arrays the region found. -/
theorem flushed_eq (c : Dev nD) (t : Fin cfg0.N) :
    (dat0 V c).flushed 3 t = ((cfg0.win 3).blk t).view.read (Elt Ideal) (G (V c main_arg0) (V c main_arg3) (V c main_v7)) := by
  show (cfg0.win 3).cut (grid0.coords t) ((dat0 V c).after 3 t) = _
  rw [after0_3]
  unfold out0_3
  rw [View.canon_unit_zero hz]
  simp only [View.ld_unit_zero (S := S4000x256) hz, View.ld_unit_zero (S := S256x128) hz, View.ld_unit_zero (S := S4000x1) hz]
  obtain ⟨e0, e1, e2, e3, e4, e5, e6, e7⟩ := idx_facts t
  funext j
  obtain ⟨p, q, rfl⟩ : ∃ (p : Fin 4000) (q : Fin 128), j = ix2 p q := ⟨j 0, j 1, eq_ix2 j⟩
  refine (body0_entry (iblk0 V c 0 t) (iblk0 V c 1 t) (iblk0 V c 2 t) p q).trans ?_
  have h0 : ∀ k : Fin 256, ((cfg0.win 0).blk t).view.emb (ix2 p k) = ix2 ((((cfg0.win 3).blk t).view.emb (ix2 p q)) 0) k := fun k => by
    funext a; apply Fin.ext
    match a with
    | ⟨0, _⟩ => show win0_0.index t (0 : Fin 2) * 4000 + 1 * p.val = win0_3.index t (0 : Fin 2) * 4000 + 1 * p.val; omega
    | ⟨1, _⟩ => show win0_0.index t (1 : Fin 2) * 256 + 1 * k.val = k.val; omega
  have h1 : ∀ k : Fin 256, ((cfg0.win 1).blk t).view.emb (ix2 k q) = ix2 k ((((cfg0.win 3).blk t).view.emb (ix2 p q)) 1) := fun k => by
    funext a; apply Fin.ext
    match a with
    | ⟨0, _⟩ => show win0_1.index t (0 : Fin 2) * 256 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 p (0 : Fin 1)) = ix2 ((((cfg0.win 3).blk t).view.emb (ix2 p q)) 0) (0 : Fin 1) := by
    funext a; apply Fin.ext
    match a with
    | ⟨0, _⟩ => show win0_2.index t (0 : Fin 2) * 4000 + 1 * p.val = win0_3.index t (0 : Fin 2) * 4000 + 1 * p.val; omega
    | ⟨1, _⟩ => show win0_2.index t (1 : Fin 2) * 1 + 1 * 0 = 0; omega
  exact scaledProduct_eq (p' := (((cfg0.win 3).blk t).view.emb (ix2 p q)) 0) (q' := (((cfg0.win 3).blk t).view.emb (ix2 p q)) 1)
    (fun k => congrArg (V c main_arg0) (h0 k)) (fun k => congrArg (V c main_arg3) (h1 k)) (congrArg (V c main_v7) h2)

/-- An index of the output array is in point t's block iff each coordinate is in the block's range on its axis. -/
theorem mem_blk (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v19).slice (win0_3.rect t)).set ↔ _
  rw [View.set_slice_whole, Rect.mem_set_unit]
  exact Iff.rfl

/-- Every index of the output array is in the block of the point whose row block holds its row. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega

/-- After the region its output array is the scaled product of the arrays the region found. -/
theorem final (c : Dev nD) : (dat0 V c).arrAt 3 cfg0.N = G (V c main_arg0) (V c main_arg3) (V c main_v7) :=
  (dat0 V c).arrAt_eq_of_cover 3 (G (V c main_arg0) (V c main_arg3) (V c main_v7)) (fun t _ => flushed_eq V c t) cover

end Cert.KernelIdeal.Region0

end
-- ==== Proof.Region1.lean ====
/-
  Region 1 (the first layer's finish fused with the second transform), from blocks to the whole array.

  The grid has 25 points; point t reads rows 4000·t … 4000·t + 3999 of the first aggregate and of the two columns of degree
  scales, the whole bias row and the whole second weight matrix, and writes the same rows of the output.  Entry (p, q) of
  the block it writes is the next transform's entry (4000·t + p, q) of the WHOLE arrays, since each row-indexed block's row
  p is the array's row 4000·t + p and the other two blocks are the whole arrays.  The 25 row blocks tile the 100000 rows.
-/
import proofs.«102556_j18459769438249_2_alg».proof.Proof.Gen.KernelIdeal.Frame
import proofs.«102556_j18459769438249_2_alg».proof.Proof.Bodies
import Idealize.ShloMosaic.Lib.Pipeline.Value

set_option maxRecDepth 16384

noncomputable section

namespace Cert.KernelIdeal.Region1

open Cert.KernelIdeal Cert.KernelIdeal.Gen Cert.Layers Cert.KernelIdeal.Bodies
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole output array: the first aggregate scaled by rows, biased by columns, rectified, times the second weights, each row scaled. -/
def G (agg : S100000x128.Idx → EReal) (d : S100000x1.Idx → EReal) (b : S1x128.Idx → EReal) (w : S128x64.Idx → EReal)
    (s : S100000x1.Idx → EReal) : S100000x64.Idx → EReal :=
  fun i => nextTransform agg d b w s (i 0) (i 1)

/-- Where each window's block sits at point t: the row blocks of the aggregate, of the two columns of degree scales and of the
    output move together, the bias row and the weight matrix stay, and every column block index is 0. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = win1_5.index t (0 : Fin 2) ∧ win1_4.index t (1 : Fin 2) = 0
    ∧ win1_5.index t (1 : Fin 2) = 0 ∧ win1_5.index t (0 : Fin 2) ≤ 24 :=
  (by decide +kernel : ∀ t : Fin grid1.N, _)

/-- Every row block of the output is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- What point t writes back is block t of the whole-array function of the arrays the region found. -/
theorem flushed_eq (c : Dev nD) (t : Fin cfg1.N) :
    (dat1 V c).flushed 5 t = ((cfg1.win 5).blk t).view.read (Elt Ideal)
      (G (V c main_v30) (V c main_v15) (V c main_v16) (V c main_arg5) (V c main_v7)) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz, View.ld_unit_zero (S := S1x128) hz, View.ld_unit_zero (S := S128x64) hz]
  obtain ⟨e0, e1, e2, e3, e4, e5, e6, e7, e8, e9, e10, e11⟩ := idx_facts t
  funext j
  obtain ⟨p, q, rfl⟩ : ∃ (p : Fin 4000) (q : Fin 64), j = ix2 p q := ⟨j 0, j 1, eq_ix2 j⟩
  refine (body1_entry (iblk1 V c 0 t) (iblk1 V c 1 t) (iblk1 V c 2 t) (iblk1 V c 3 t) (iblk1 V c 4 t) p q).trans ?_
  have h0 : ∀ k : Fin 128, ((cfg1.win 0).blk t).view.emb (ix2 p k) = ix2 ((((cfg1.win 5).blk t).view.emb (ix2 p q)) 0) k := fun k => by
    funext a; apply Fin.ext
    match a with
    | ⟨0, _⟩ => show win1_0.index t (0 : Fin 2) * 4000 + 1 * p.val = win1_5.index t (0 : Fin 2) * 4000 + 1 * p.val; omega
    | ⟨1, _⟩ => show win1_0.index t (1 : Fin 2) * 128 + 1 * k.val = k.val; omega
  have h1 : ((cfg1.win 1).blk t).view.emb (ix2 p (0 : Fin 1)) = ix2 ((((cfg1.win 5).blk t).view.emb (ix2 p q)) 0) (0 : Fin 1) := by
    funext a; apply Fin.ext
    match a with
    | ⟨0, _⟩ => show win1_1.index t (0 : Fin 2) * 4000 + 1 * p.val = win1_5.index t (0 : Fin 2) * 4000 + 1 * p.val; omega
    | ⟨1, _⟩ => show win1_1.index t (1 : Fin 2) * 1 + 1 * 0 = 0; omega
  have h2 : ∀ k : Fin 128, ((cfg1.win 2).blk t).view.emb (ix2 (0 : Fin 1) k) = ix2 (0 : Fin 1) k := fun k => by
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : ∀ k : Fin 128, ((cfg1.win 3).blk t).view.emb (ix2 k q) = ix2 k ((((cfg1.win 5).blk t).view.emb (ix2 p q)) 1) := fun k => by
    funext a; apply Fin.ext
    match a with
    | ⟨0, _⟩ => show win1_3.index t (0 : Fin 2) * 128 + 1 * k.val = k.val; omega
    | ⟨1, _⟩ => show win1_3.index t (1 : Fin 2) * 64 + 1 * q.val = win1_5.index t (1 : Fin 2) * 64 + 1 * q.val; omega
  have h4 : ((cfg1.win 4).blk t).view.emb (ix2 p (0 : Fin 1)) = ix2 ((((cfg1.win 5).blk t).view.emb (ix2 p q)) 0) (0 : Fin 1) := by
    funext a; apply Fin.ext
    match a with
    | ⟨0, _⟩ => show win1_4.index t (0 : Fin 2) * 4000 + 1 * p.val = win1_5.index t (0 : Fin 2) * 4000 + 1 * p.val; omega
    | ⟨1, _⟩ => show win1_4.index t (1 : Fin 2) * 1 + 1 * 0 = 0; omega
  exact nextTransform_eq (p' := (((cfg1.win 5).blk t).view.emb (ix2 p q)) 0) (q' := (((cfg1.win 5).blk t).view.emb (ix2 p q)) 1)
    (fun k => congrArg (V c main_v30) (h0 k)) (congrArg (V c main_v15) h1) (fun k => congrArg (V c main_v16) (h2 k))
    (fun k => congrArg (V c main_arg5) (h3 k)) (congrArg (V c main_v7) h4)

/-- An index of the output array is in point t's block iff each coordinate is in the block's range on its axis. -/
theorem mem_blk (t : Fin cfg1.N) (i : S100000x64.Idx) :
    i ∈ ((cfg1.win 5).blk t).view.set ↔ ∀ a : Fin 2, win1_5.index t a * S4000x64.size a ≤ (i a).val ∧ (i a).val < win1_5.index t a * S4000x64.size a + S4000x64.size a := by
  show i ∈ ((View.whole main_v31).slice (win1_5.rect t)).set ↔ _
  rw [View.set_slice_whole, Rect.mem_set_unit]
  exact Iff.rfl

/-- Every index of the output array is in the block of the point whose row block holds its row. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 64 ≤ (i 1).val ∧ (i 1).val < win1_5.index t (1 : Fin 2) * 64 + 64; omega

/-- After the region its output array is the next transform of the arrays the region found. -/
theorem final (c : Dev nD) : (dat1 V c).arrAt 5 cfg1.N = G (V c main_v30) (V c main_v15) (V c main_v16) (V c main_arg5) (V c main_v7) :=
  (dat1 V c).arrAt_eq_of_cover 5 (G (V c main_v30) (V c main_v15) (V c main_v16) (V c main_arg5) (V c main_v7)) (fun t _ => flushed_eq V c t) cover

end Cert.KernelIdeal.Region1

end
-- ==== Proof.Region2.lean ====
/-
  Region 2 (the second layer's finish fused with the final linear layer and the log-softmax), from blocks to the whole array.

  The grid has 50 points; point t reads rows 2000·t … 2000·t + 1999 of the second aggregate and of the column of in-degree
  scales, the whole bias rows and the whole last weight matrix, and writes the same rows of the result.  A row of the
  block of logits is the row 2000·t + p of the logits of the WHOLE arrays, and the log-softmax works row by row over all
  200 columns, which one block holds; so entry (p, q) of the block written is entry (2000·t + p, q) of the log-softmax of
  the whole logits.  The 50 row blocks tile the 100000 rows.
-/
import proofs.«102556_j18459769438249_2_alg».proof.Proof.Gen.KernelIdeal.Frame
import proofs.«102556_j18459769438249_2_alg».proof.Proof.Bodies
import Idealize.ShloMosaic.Lib.Pipeline.Value

set_option maxRecDepth 16384

noncomputable section

namespace Cert.KernelIdeal.Region2

open Cert.KernelIdeal Cert.KernelIdeal.Gen Cert.Layers Cert.KernelIdeal.Bodies Cert.Lib.RowSoftmax
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The whole result array: the row-wise log-softmax of the logits of the second aggregate. -/
def G (agg : S100000x64.Idx → EReal) (d : S100000x1.Idx → EReal) (b : S1x64.Idx → EReal) (w : S64x200.Idx → EReal)
    (s : S1x200.Idx → EReal) : S100000x200.Idx → EReal :=
  fun i => logSoftmax (logits agg d b w s) (i 0) (i 1)

/-- Where each window's block sits at point t: the row blocks of the aggregate, of the column of in-degree scales and of the
    output move together, the bias rows and the weight matrix stay, and every column block index is 0. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 49 :=
  (by decide +kernel : ∀ t : Fin grid2.N, _)

/-- Every row block of the output is some point's. -/
theorem idx_onto : ∀ q0 : Fin 50, ∃ t : Fin cfg2.N, win2_5.index t = ![q0.val, 0] :=
  (by decide +kernel : ∀ q0 : Fin 50, ∃ t : Fin grid2.N, win2_5.index t = ![q0.val, 0])

/-- What point t writes back is block t of the whole-array function of the arrays the region found. -/
theorem flushed_eq (c : Dev nD) (t : Fin cfg2.N) :
    (dat2 V c).flushed 5 t = ((cfg2.win 5).blk t).view.read (Elt Ideal)
      (G (V c main_v42) (V c main_v15) (V c main_v17) (V c main_arg7) (V c main_v18)) := by
  show (cfg2.win 5).cut (grid2.coords t) ((dat2 V c).after 5 t) = _
  rw [after2_5]
  unfold out2_5
  rw [View.canon_unit_zero hz]
  simp only [View.ld_unit_zero (S := S2000x64) hz, View.ld_unit_zero (S := S2000x1) hz, View.ld_unit_zero (S := S1x64) hz, View.ld_unit_zero (S := S64x200) hz, View.ld_unit_zero (S := S1x200) hz]
  obtain ⟨e0, e1, e2, e3, e4, e5, e6, e7, e8, e9, e10, e11⟩ := idx_facts t
  funext j
  obtain ⟨p, q, rfl⟩ : ∃ (p : Fin 2000) (q : Fin 200), j = ix2 p q := ⟨j 0, j 1, eq_ix2 j⟩
  refine (body2_entry (iblk2 V c 0 t) (iblk2 V c 1 t) (iblk2 V c 2 t) (iblk2 V c 3 t) (iblk2 V c 4 t) p q).trans ?_
  have h0 : ∀ k : Fin 64, ((cfg2.win 0).blk t).view.emb (ix2 p k) = ix2 ((((cfg2.win 5).blk t).view.emb (ix2 p q)) 0) k := fun k => by
    funext a; apply Fin.ext
    match a with
    | ⟨0, _⟩ => show win2_0.index t (0 : Fin 2) * 2000 + 1 * p.val = win2_5.index t (0 : Fin 2) * 2000 + 1 * p.val; omega
    | ⟨1, _⟩ => show win2_0.index t (1 : Fin 2) * 64 + 1 * k.val = k.val; omega
  have h1 : ((cfg2.win 1).blk t).view.emb (ix2 p (0 : Fin 1)) = ix2 ((((cfg2.win 5).blk t).view.emb (ix2 p q)) 0) (0 : Fin 1) := by
    funext a; apply Fin.ext
    match a with
    | ⟨0, _⟩ => show win2_1.index t (0 : Fin 2) * 2000 + 1 * p.val = win2_5.index t (0 : Fin 2) * 2000 + 1 * p.val; omega
    | ⟨1, _⟩ => show win2_1.index t (1 : Fin 2) * 1 + 1 * 0 = 0; omega
  have h2 : ∀ k : Fin 64, ((cfg2.win 2).blk t).view.emb (ix2 (0 : Fin 1) k) = ix2 (0 : Fin 1) k := fun k => by
    funext a; apply Fin.ext
    match a with
    | ⟨0, _⟩ => show win2_2.index t (0 : Fin 2) * 1 + 1 * 0 = 0; omega
    | ⟨1, _⟩ => show win2_2.index t (1 : Fin 2) * 64 + 1 * k.val = k.val; omega
  have h3 : ∀ (k : Fin 64) (r : Fin 200), ((cfg2.win 3).blk t).view.emb (ix2 k r) = ix2 k r := fun k r => by
    funext a; apply Fin.ext
    match a with
    | ⟨0, _⟩ => show win2_3.index t (0 : Fin 2) * 64 + 1 * k.val = k.val; omega
    | ⟨1, _⟩ => show win2_3.index t (1 : Fin 2) * 200 + 1 * r.val = r.val; omega
  have h4 : ∀ r : Fin 200, ((cfg2.win 4).blk t).view.emb (ix2 (0 : Fin 1) r) = ix2 (0 : Fin 1) r := fun r => by
    funext a; apply Fin.ext
    match a with
    | ⟨0, _⟩ => show win2_4.index t (0 : Fin 2) * 1 + 1 * 0 = 0; omega
    | ⟨1, _⟩ => show win2_4.index t (1 : Fin 2) * 200 + 1 * r.val = r.val; omega
  have hq : (((cfg2.win 5).blk t).view.emb (ix2 p q)) 1 = q := by
    apply Fin.ext
    show win2_5.index t (1 : Fin 2) * 200 + 1 * q.val = q.val; omega
  show logSoftmax (logits (iblk2 V c 0 t) (iblk2 V c 1 t) (iblk2 V c 2 t) (iblk2 V c 3 t) (iblk2 V c 4 t)) p q
    = logSoftmax (logits (V c main_v42) (V c main_v15) (V c main_v17) (V c main_arg7) (V c main_v18))
        ((((cfg2.win 5).blk t).view.emb (ix2 p q)) 0) ((((cfg2.win 5).blk t).view.emb (ix2 p q)) 1)
  rw [hq]
  exact logSoftmax_eq q fun r => logits_eq r (fun k => congrArg (V c main_v42) (h0 k)) (congrArg (V c main_v15) h1)
    (fun k => congrArg (V c main_v17) (h2 k)) (fun k => congrArg (V c main_arg7) (h3 k r)) (congrArg (V c main_v18) (h4 r))

/-- An index of the output array is in point t's block iff each coordinate is in the block's range on its axis. -/
theorem mem_blk (t : Fin cfg2.N) (i : S100000x200.Idx) :
    i ∈ ((cfg2.win 5).blk t).view.set ↔ ∀ a : Fin 2, win2_5.index t a * S2000x200.size a ≤ (i a).val ∧ (i a).val < win2_5.index t a * S2000x200.size a + S2000x200.size a := by
  show i ∈ ((View.whole main_v43).slice (win2_5.rect t)).set ↔ _
  rw [View.set_slice_whole, Rect.mem_set_unit]
  exact Iff.rfl

/-- Every index of the output array is in the block of the point whose row block holds its row. -/
theorem cover (i : S100000x200.Idx) : ∃ t : Fin cfg2.N, (cfg2.win 5).flush t = true ∧ i ∈ ((cfg2.win 5).blk t).view.set := by
  have hi0 : (i 0).val < 100000 := (i 0).isLt
  have hi1 : (i 1).val < 200 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 200 ≤ (i 1).val ∧ (i 1).val < win2_5.index t (1 : Fin 2) * 200 + 200; omega

/-- After the region the result array is the log-softmax of the logits of the arrays the region found. -/
theorem final (c : Dev nD) : (dat2 V c).arrAt 5 cfg2.N = G (V c main_v42) (V c main_v15) (V c main_v17) (V c main_arg7) (V c main_v18) :=
  (dat2 V c).arrAt_eq_of_cover 5 (G (V c main_v42) (V c main_v15) (V c main_v17) (V c main_arg7) (V c main_v18)) (fun t _ => flushed_eq V c t) cover

end Cert.KernelIdeal.Region2

end
-- ==== Proof.HostFns.lean ====
/-
  The host's functions around the three regions, and the whole result as one function of the nine arguments.

  From an array of edge endpoints the program counts, per node, the edges that name it (a scatter-add of ones into zeros),
  takes the maximum with one and raises it to the power −1/2: the node's degree scale; the scales are laid out as a column.
  Each bias vector is laid out as a row.  Between two regions the rows of the transformed features are gathered along
  the edges' sources (a negative index first moved up by the number of nodes) and summed into the edges' destinations:
  the aggregation.  All of this is the same text in the reference program, so these functions are never opened: they are
  only applied to equal operands.
-/
import proofs.«102556_j18459769438249_2_alg».proof.Proof.Gen.KernelIdeal
import proofs.«102556_j18459769438249_2_alg».proof.Proof.Layers
import Idealize.ShloMosaic.PureOps.Ideal

noncomputable section

namespace Cert.KernelIdeal.HostFns

open Cert.KernelIdeal Cert.KernelIdeal.Gen Cert.Layers
open Idealize.ShloMosaic Idealize.ShloMosaic.TcCoe Idealize.SL.Sem Idealize.ShloMosaic.ValueIdx

/-- One endpoint per edge. -/
abbrev Edges : Type := (⟨S1700000, .i32⟩ : BufTy).Contents (Elt Ideal)

/-- Per node: (max (number of edges naming it) 1) ^ (−1/2). -/
def degreeVec (idx : Edges) : (⟨S100000, .f32⟩ : BufTy).Contents (Elt Ideal) :=
  Host.powf (F := Ideal)
    (maximumf (broadcastInDim S100000 ![] bcast_S_S100000 (constant (F := Ideal) S_ .f32 0x3F800000#32))
      (Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0 idx)
        (broadcastInDim S1700000 ![] bcast_S_S1700000 (constant (F := Ideal) S_ .f32 0x3F800000#32))))
    (broadcastInDim S100000 ![] bcast_S_S100000 (constant (F := Ideal) S_ .f32 0xBF000000#32))

/-- The degree scales as a column. -/
def degreeColumn (idx : Edges) : (⟨S100000x1, .f32⟩ : BufTy).Contents (Elt Ideal) :=
  shapeCast S100000x1 (degreeVec idx) shapeCasts_S100000_S100000x1

/-- A bias vector as a row. -/
def biasRow128 (b : (⟨S128, .f32⟩ : BufTy).Contents (Elt Ideal)) : (⟨S1x128, .f32⟩ : BufTy).Contents (Elt Ideal) :=
  shapeCast S1x128 b shapeCasts_S128_S1x128
def biasRow64 (b : (⟨S64, .f32⟩ : BufTy).Contents (Elt Ideal)) : (⟨S1x64, .f32⟩ : BufTy).Contents (Elt Ideal) :=
  shapeCast S1x64 b shapeCasts_S64_S1x64
def biasRow200 (b : (⟨S200, .f32⟩ : BufTy).Contents (Elt Ideal)) : (⟨S1x200, .f32⟩ : BufTy).Contents (Elt Ideal) :=
  shapeCast S1x200 b shapeCasts_S200_S1x200

/-- The gather's start indices: a negative source index is moved up by the number of nodes; one index per edge, as a column. -/
def gatherIdx (src : Edges) : (⟨S1700000x1, .i32⟩ : BufTy).Contents (Elt Ideal) :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- The aggregation of 128-column rows: gather along the sources, sum into the destinations. -/
def agg128 (src dst : Edges) (h : (⟨S100000x128, .bf16⟩ : BufTy).Contents (Elt Ideal)) :
    (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 dst)
    (extf .f32 (Host.gather gather_S100000x128_S1700000x1_S1700000x128_1_0_n_n_0_1_1128 h (gatherIdx src)) bitsLt_bf16_f32)

/-- The aggregation of 64-column rows. -/
def agg64 (src dst : Edges) (h : (⟨S100000x64, .bf16⟩ : BufTy).Contents (Elt Ideal)) :
    (⟨S100000x64, .f32⟩ : BufTy).Contents (Elt Ideal) :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 dst)
    (extf .f32 (Host.gather gather_S100000x64_S1700000x1_S1700000x64_1_0_n_n_0_1_164 h (gatherIdx src)) bitsLt_bf16_f32)

end Cert.KernelIdeal.HostFns

end
-- ==== Proof.Stages.lean ====
/-
  The program's stages as functions of the nine argument arrays.

  Each stage is the whole-array function of one region applied to the stages before it, with the edge aggregation
  between the regions: the first transform, its aggregation, the second transform, its aggregation, and the log-softmax
  of the logits.  Both programs are compared against these.
-/
import proofs.«102556_j18459769438249_2_alg».proof.Proof.Region0
import proofs.«102556_j18459769438249_2_alg».proof.Proof.Region1
import proofs.«102556_j18459769438249_2_alg».proof.Proof.Region2
import proofs.«102556_j18459769438249_2_alg».proof.Proof.HostFns

noncomputable section

namespace Cert.KernelIdeal.Stages

open Cert.KernelIdeal Cert.KernelIdeal.Gen Cert.KernelIdeal.HostFns
open Idealize.ShloMosaic Idealize.ShloMosaic.TcCoe Idealize.SL.Sem

/-- The first transform: features times the first weights, each row scaled by its node's out-degree scale. -/
def H1 (x0 : (⟨S100000x256, .f32⟩ : BufTy).Contents (Elt Ideal)) (x1 : Edges) (x3 : (⟨S256x128, .f32⟩ : BufTy).Contents (Elt Ideal)) :
    (⟨S100000x128, .bf16⟩ : BufTy).Contents (Elt Ideal) :=
  Region0.G x0 x3 (degreeColumn x1)

/-- Its aggregation along the edges. -/
def M1 (x0 : (⟨S100000x256, .f32⟩ : BufTy).Contents (Elt Ideal)) (x1 x2 : Edges) (x3 : (⟨S256x128, .f32⟩ : BufTy).Contents (Elt Ideal)) :
    (⟨S100000x128, .f32⟩ : BufTy).Contents (Elt Ideal) :=
  agg128 x1 x2 (H1 x0 x1 x3)

/-- The second transform of the first layer's rectified output. -/
def H2 (x0 : (⟨S100000x256, .f32⟩ : BufTy).Contents (Elt Ideal)) (x1 x2 : Edges) (x3 : (⟨S256x128, .f32⟩ : BufTy).Contents (Elt Ideal))
    (x4 : (⟨S128, .f32⟩ : BufTy).Contents (Elt Ideal)) (x5 : (⟨S128x64, .f32⟩ : BufTy).Contents (Elt Ideal)) :
    (⟨S100000x64, .bf16⟩ : BufTy).Contents (Elt Ideal) :=
  Region1.G (M1 x0 x1 x2 x3) (degreeColumn x2) (biasRow128 x4) x5 (degreeColumn x1)

/-- Its aggregation along the edges. -/
def M2 (x0 : (⟨S100000x256, .f32⟩ : BufTy).Contents (Elt Ideal)) (x1 x2 : Edges) (x3 : (⟨S256x128, .f32⟩ : BufTy).Contents (Elt Ideal))
    (x4 : (⟨S128, .f32⟩ : BufTy).Contents (Elt Ideal)) (x5 : (⟨S128x64, .f32⟩ : BufTy).Contents (Elt Ideal)) :
    (⟨S100000x64, .f32⟩ : BufTy).Contents (Elt Ideal) :=
  agg64 x1 x2 (H2 x0 x1 x2 x3 x4 x5)

/-- The program's result: the log-softmax of the logits of the second layer's rectified output. -/
def result (x0 : (⟨S100000x256, .f32⟩ : BufTy).Contents (Elt Ideal)) (x1 x2 : Edges) (x3 : (⟨S256x128, .f32⟩ : BufTy).Contents (Elt Ideal))
    (x4 : (⟨S128, .f32⟩ : BufTy).Contents (Elt Ideal)) (x5 : (⟨S128x64, .f32⟩ : BufTy).Contents (Elt Ideal))
    (x6 : (⟨S64, .f32⟩ : BufTy).Contents (Elt Ideal)) (x7 : (⟨S64x200, .f32⟩ : BufTy).Contents (Elt Ideal))
    (x8 : (⟨S200, .f32⟩ : BufTy).Contents (Elt Ideal)) : (⟨S100000x200, .f32⟩ : BufTy).Contents (Elt Ideal) :=
  Region2.G (M2 x0 x1 x2 x3 x4 x5) (degreeColumn x2) (biasRow64 x6) x7 (biasRow200 x8)

end Cert.KernelIdeal.Stages

end
-- ==== Proof.RefValue.lean ====
/-
  The reference program's result is the same function of the arguments.

  The reference computes the same chain on the host, one whole-array operation at a time.  Read at an entry, its first
  product scaled by the out-degree column is the first transform; its gather and scatter-add are the aggregation, the
  same function applied to an equal operand; its scaling, bias, rectification, second product and scaling are the second
  transform; and its final product, bias and log-softmax — the row maximum taken once more against minus infinity, which
  changes nothing, and the row sum started from zero — are the log-softmax of the logits.
-/
import proofs.«102556_j18459769438249_2_alg».proof.Proof.RefRead
import proofs.«102556_j18459769438249_2_alg».proof.Proof.Stages
import proofs.«102556_j18459769438249_2_alg».proof.Proof.LibRowOps
import proofs.«102556_j18459769438249_2_alg».proof.Proof.LibRowSoftmax
import Idealize.ShloMosaic.Lib.ValueIdx
import Idealize.ShloMosaic.Lib.ValueLayout
import Idealize.ShloMosaic.PureOps.Reduce
import Idealize.ShloMosaic.PureOps.Ideal.Laws

set_option maxRecDepth 16384

noncomputable section

namespace Cert.ReferenceIdeal.Bridge

open Cert.ReferenceIdeal Cert.ReferenceIdeal.Gen Cert.ReferenceIdeal.ReadP
open Cert.KernelIdeal.HostFns Cert.KernelIdeal.Stages Cert.Layers
open Idealize.ShloMosaic Idealize.ShloMosaic.TcCoe Idealize.SL.Sem Idealize.ShloMosaic.ValueIdx
open Cert.Lib.RowOps Cert.Lib.RowSoftmax

/-! ## Where the reference's layout operations read -/

theorem l0 (p : Fin 100000) (q : Fin 128) (k : Fin 256) : lidx_main_v0 (ix2 p q) k = ix2 p k :=
  funext fun a => by match a with | ⟨0, _⟩ => rfl | ⟨1, _⟩ => rfl
theorem r0 (p : Fin 100000) (q : Fin 128) (k : Fin 256) : ridx_main_v0 (ix2 p q) k = ix2 k q :=
  funext fun a => by match a with | ⟨0, _⟩ => rfl | ⟨1, _⟩ => rfl
theorem l35 (p : Fin 100000) (q : Fin 64) (k : Fin 128) : lidx_main_v35 (ix2 p q) k = ix2 p k :=
  funext fun a => by match a with | ⟨0, _⟩ => rfl | ⟨1, _⟩ => rfl
theorem r35 (p : Fin 100000) (q : Fin 64) (k : Fin 128) : ridx_main_v35 (ix2 p q) k = ix2 k q :=
  funext fun a => by match a with | ⟨0, _⟩ => rfl | ⟨1, _⟩ => rfl
theorem l70 (p : Fin 100000) (q : Fin 200) (k : Fin 64) : lidx_main_v70 (ix2 p q) k = ix2 p k :=
  funext fun a => by match a with | ⟨0, _⟩ => rfl | ⟨1, _⟩ => rfl
theorem r70 (p : Fin 100000) (q : Fin 200) (k : Fin 64) : ridx_main_v70 (ix2 p q) k = ix2 k q :=
  funext fun a => by match a with | ⟨0, _⟩ => rfl | ⟨1, _⟩ => rfl
theorem i9 (p : Fin 100000) (q : Fin 128) : idx_main_v9 (ix2 p q) = ix2 p (0 : Fin 1) :=
  funext fun a => by match a with | ⟨0, _⟩ => rfl | ⟨1, _⟩ => rfl
theorem i29 (p : Fin 100000) (q : Fin 128) : idx_main_v29 (ix2 p q) = ix2 p (0 : Fin 1) :=
  funext fun a => by match a with | ⟨0, _⟩ => rfl | ⟨1, _⟩ => rfl
theorem i44 (p : Fin 100000) (q : Fin 64) : idx_main_v44 (ix2 p q) = ix2 p (0 : Fin 1) :=
  funext fun a => by match a with | ⟨0, _⟩ => rfl | ⟨1, _⟩ => rfl
theorem i64 (p : Fin 100000) (q : Fin 64) : idx_main_v64 (ix2 p q) = ix2 p (0 : Fin 1) :=
  funext fun a => by match a with | ⟨0, _⟩ => rfl | ⟨1, _⟩ => rfl
theorem i8 (p : Fin 100000) (u : Fin 1) : idx_main_v8 (ix2 p u) = ix1 p :=
  funext fun a => by match a with | ⟨0, _⟩ => rfl
theorem i28 (p : Fin 100000) (u : Fin 1) : idx_main_v28 (ix2 p u) = ix1 p :=
  funext fun a => by match a with | ⟨0, _⟩ => rfl
theorem i43 (p : Fin 100000) (u : Fin 1) : idx_main_v43 (ix2 p u) = ix1 p :=
  funext fun a => by match a with | ⟨0, _⟩ => rfl
theorem i63 (p : Fin 100000) (u : Fin 1) : idx_main_v63 (ix2 p u) = ix1 p :=
  funext fun a => by match a with | ⟨0, _⟩ => rfl
theorem i32 (p : Fin 100000) (q : Fin 128) : idx_main_v32 (ix2 p q) = ix2 (0 : Fin 1) q :=
  funext fun a => by match a with | ⟨0, _⟩ => rfl | ⟨1, _⟩ => rfl
theorem i67 (p : Fin 100000) (q : Fin 64) : idx_main_v67 (ix2 p q) = ix2 (0 : Fin 1) q :=
  funext fun a => by match a with | ⟨0, _⟩ => rfl | ⟨1, _⟩ => rfl
theorem i72 (p : Fin 100000) (q : Fin 200) : idx_main_v72 (ix2 p q) = ix2 (0 : Fin 1) q :=
  funext fun a => by match a with | ⟨0, _⟩ => rfl | ⟨1, _⟩ => rfl
theorem i31 (u : Fin 1) (q : Fin 128) : idx_main_v31 (ix2 u q) = ix1 q :=
  funext fun a => by match a with | ⟨0, _⟩ => rfl
theorem i66 (u : Fin 1) (q : Fin 64) : idx_main_v66 (ix2 u q) = ix1 q :=
  funext fun a => by match a with | ⟨0, _⟩ => rfl
theorem i71 (u : Fin 1) (q : Fin 200) : idx_main_v71 (ix2 u q) = ix1 q :=
  funext fun a => by match a with | ⟨0, _⟩ => rfl
theorem ic4 (p : Fin 100000) (q : Fin 200) : idx_main_call6_v4 (ix2 p q) = ix2 p (0 : Fin 1) :=
  funext fun a => by match a with | ⟨0, _⟩ => rfl | ⟨1, _⟩ => rfl
theorem ic10 (p : Fin 100000) (q : Fin 200) : idx_main_call6_v10 (ix2 p q) = ix2 p (0 : Fin 1) :=
  funext fun a => by match a with | ⟨0, _⟩ => rfl | ⟨1, _⟩ => rfl
theorem ic3 (p : Fin 100000) (u : Fin 1) : idx_main_call6_v3 (ix2 p u) = ix1 p :=
  funext fun a => by match a with | ⟨0, _⟩ => rfl
theorem ic8 (p : Fin 100000) (u : Fin 1) : idx_main_call6_v8 (ix2 p u) = ix1 p :=
  funext fun a => by match a with | ⟨0, _⟩ => rfl
theorem ic7 (p : Fin 100000) (k : Fin 200) : idx_main_call6_v7 (ix1 p) k = ix2 p k :=
  funext fun a => by match a with | ⟨0, _⟩ => rfl | ⟨1, _⟩ => rfl

/-! ## The pointwise stages, restated

The reference's pointwise stages read at an entry.  (The same statements as the read lemmas they cite; restated so
that a rewrite with one of them is a recorded step and not a definitional unfolding.) -/

theorem n_v34_apply {F : FTy → Type} [FloatOps F] (x0 : (⟨S100000x256, .f32⟩ : BufTy).Contents (Elt F)) (x1 x2 : (⟨S1700000, .i32⟩ : BufTy).Contents (Elt F)) (x3 : (⟨S256x128, .f32⟩ : BufTy).Contents (Elt F)) (x4 : (⟨S128, .f32⟩ : BufTy).Contents (Elt F)) (i : S100000x128.Idx) :
    val_main_v34 (F := F) x0 x1 x2 x3 x4 i = FloatOps.maximumf (val_main_v33 (F := F) x0 x1 x2 x3 x4 i) (val_main_call2_v0 (F := F) i) := by rw [val_main_v34_apply]
theorem n_v33_apply {F : FTy → Type} [FloatOps F] (x0 : (⟨S100000x256, .f32⟩ : BufTy).Contents (Elt F)) (x1 x2 : (⟨S1700000, .i32⟩ : BufTy).Contents (Elt F)) (x3 : (⟨S256x128, .f32⟩ : BufTy).Contents (Elt F)) (x4 : (⟨S128, .f32⟩ : BufTy).Contents (Elt F)) (i : S100000x128.Idx) :
    val_main_v33 (F := F) x0 x1 x2 x3 x4 i = FloatOps.addf (val_main_v30 (F := F) x0 x1 x2 x3 i) (val_main_v32 (F := F) x4 i) := by rw [val_main_v33_apply]
theorem n_v30_apply {F : FTy → Type} [FloatOps F] (x0 : (⟨S100000x256, .f32⟩ : BufTy).Contents (Elt F)) (x1 x2 : (⟨S1700000, .i32⟩ : BufTy).Contents (Elt F)) (x3 : (⟨S256x128, .f32⟩ : BufTy).Contents (Elt F)) (i : S100000x128.Idx) :
    val_main_v30 (F := F) x0 x1 x2 x3 i = FloatOps.mulf (val_main_v20 (F := F) x0 x1 x2 x3 i) (val_main_v29 (F := F) x2 i) := by rw [val_main_v30_apply]
theorem n_call2_cst_apply {F : FTy → Type} [FloatOps F] (i : S_.Idx) :
    val_main_call2_cst (F := F) i = FloatOps.ofBits .f32 0x00000000#32 := by rw [val_main_call2_cst_apply]
theorem n_v69_apply {F : FTy → Type} [FloatOps F] (x0 : (⟨S100000x256, .f32⟩ : BufTy).Contents (Elt F)) (x1 x2 : (⟨S1700000, .i32⟩ : BufTy).Contents (Elt F)) (x3 : (⟨S256x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (i : S100000x64.Idx) :
    val_main_v69 (F := F) x0 x1 x2 x3 x4 x5 x6 i = FloatOps.maximumf (val_main_v68 (F := F) x0 x1 x2 x3 x4 x5 x6 i) (val_main_call5_v0 (F := F) i) := by rw [val_main_v69_apply]
theorem n_v68_apply {F : FTy → Type} [FloatOps F] (x0 : (⟨S100000x256, .f32⟩ : BufTy).Contents (Elt F)) (x1 x2 : (⟨S1700000, .i32⟩ : BufTy).Contents (Elt F)) (x3 : (⟨S256x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (i : S100000x64.Idx) :
    val_main_v68 (F := F) x0 x1 x2 x3 x4 x5 x6 i = FloatOps.addf (val_main_v65 (F := F) x0 x1 x2 x3 x4 x5 i) (val_main_v67 (F := F) x6 i) := by rw [val_main_v68_apply]
theorem n_v65_apply {F : FTy → Type} [FloatOps F] (x0 : (⟨S100000x256, .f32⟩ : BufTy).Contents (Elt F)) (x1 x2 : (⟨S1700000, .i32⟩ : BufTy).Contents (Elt F)) (x3 : (⟨S256x128, .f32⟩ : BufTy).Contents (Elt F)) (x4 : (⟨S128, .f32⟩ : BufTy).Contents (Elt F)) (x5 : (⟨S128x64, .f32⟩ : BufTy).Contents (Elt F)) (i : S100000x64.Idx) :
    val_main_v65 (F := F) x0 x1 x2 x3 x4 x5 i = FloatOps.mulf (val_main_v55 (F := F) x0 x1 x2 x3 x4 x5 i) (val_main_v64 (F := F) x2 i) := by rw [val_main_v65_apply]
theorem n_call5_cst_apply {F : FTy → Type} [FloatOps F] (i : S_.Idx) :
    val_main_call5_cst (F := F) i = FloatOps.ofBits .f32 0x00000000#32 := by rw [val_main_call5_cst_apply]
theorem n_call6_v6_apply {F : FTy → Type} [FloatOps F] (x0 : (⟨S100000x256, .f32⟩ : BufTy).Contents (Elt F)) (x1 x2 : (⟨S1700000, .i32⟩ : BufTy).Contents (Elt F)) (x3 : (⟨S256x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (x7 : (⟨S64x200, .f32⟩ : BufTy).Contents (Elt F)) (x8 : (⟨S200, .f32⟩ : BufTy).Contents (Elt F)) (i : S100000x200.Idx) :
    val_main_call6_v6 (F := F) x0 x1 x2 x3 x4 x5 x6 x7 x8 i = FloatOps.hostUnary .exp (val_main_call6_v5 (F := F) x0 x1 x2 x3 x4 x5 x6 x7 x8 i) := by rw [val_main_call6_v6_apply]
theorem n_call6_v5_apply {F : FTy → Type} [FloatOps F] (x0 : (⟨S100000x256, .f32⟩ : BufTy).Contents (Elt F)) (x1 x2 : (⟨S1700000, .i32⟩ : BufTy).Contents (Elt F)) (x3 : (⟨S256x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (x7 : (⟨S64x200, .f32⟩ : BufTy).Contents (Elt F)) (x8 : (⟨S200, .f32⟩ : BufTy).Contents (Elt F)) (i : S100000x200.Idx) :
    val_main_call6_v5 (F := F) x0 x1 x2 x3 x4 x5 x6 x7 x8 i = FloatOps.subf (val_main_v73 (F := F) x0 x1 x2 x3 x4 x5 x6 x7 x8 i) (val_main_call6_v4 (F := F) x0 x1 x2 x3 x4 x5 x6 x7 x8 i) := by rw [val_main_call6_v5_apply]
theorem n_call6_cst_1_apply {F : FTy → Type} [FloatOps F] (i : S_.Idx) :
    val_main_call6_cst_1 (F := F) i = FloatOps.ofBits .f32 0x00000000#32 := by rw [val_main_call6_cst_1_apply]
theorem n_call6_v2_apply {F : FTy → Type} [FloatOps F] (x0 : (⟨S100000x256, .f32⟩ : BufTy).Contents (Elt F)) (x1 x2 : (⟨S1700000, .i32⟩ : BufTy).Contents (Elt F)) (x3 : (⟨S256x128, .f32⟩ : BufTy).Contents (Elt F)) (x4 : (⟨S128, .f32⟩ : BufTy).Contents (Elt F)) (x5 : (⟨S128x64, .f32⟩ : BufTy).Contents (Elt F)) (x6 : (⟨S64, .f32⟩ : BufTy).Contents (Elt F)) (x7 : (⟨S64x200, .f32⟩ : BufTy).Contents (Elt F)) (x8 : (⟨S200, .f32⟩ : BufTy).Contents (Elt F)) (i : S100000.Idx) :
    val_main_call6_v2 (F := F) x0 x1 x2 x3 x4 x5 x6 x7 x8 i = FloatOps.maximumf (val_main_call6_v1 (F := F) i) (val_main_call6_v0 (F := F) x0 x1 x2 x3 x4 x5 x6 x7 x8 i) := by rw [val_main_call6_v2_apply]

/-! ## The shared host functions -/

/-- The reference computes each degree scale by the same operations (four times over). -/
theorem deg7 (x : Edges) : val_main_v7 (F := Ideal) x = degreeVec x := Eq.trans rfl rfl
theorem deg27 (x : Edges) : val_main_v27 (F := Ideal) x = degreeVec x := Eq.trans rfl rfl
theorem deg42 (x : Edges) : val_main_v42 (F := Ideal) x = degreeVec x := Eq.trans rfl rfl
theorem deg62 (x : Edges) : val_main_v62 (F := Ideal) x = degreeVec x := Eq.trans rfl rfl

/-- The degree column at row p is the degree vector at p. -/
theorem deg_entry (x : Edges) (p : Fin 100000) : degreeColumn x (ix2 p (0 : Fin 1)) = degreeVec x (ix1 p) :=
  shapeCast_a_a1_apply (degreeVec x) _ p 0

/-- A bias row at column k is the bias vector at k. -/
theorem bias128_entry (b : (⟨S128, .f32⟩ : BufTy).Contents (Elt Ideal)) (k : Fin 128) : biasRow128 b (ix2 (0 : Fin 1) k) = b (ix1 k) :=
  shapeCast_a_1a_apply b _ 0 k
theorem bias64_entry (b : (⟨S64, .f32⟩ : BufTy).Contents (Elt Ideal)) (k : Fin 64) : biasRow64 b (ix2 (0 : Fin 1) k) = b (ix1 k) :=
  shapeCast_a_1a_apply b _ 0 k
theorem bias200_entry (b : (⟨S200, .f32⟩ : BufTy).Contents (Elt Ideal)) (k : Fin 200) : biasRow200 b (ix2 (0 : Fin 1) k) = b (ix1 k) :=
  shapeCast_a_1a_apply b _ 0 k

variable (x0 : (⟨S100000x256, .f32⟩ : BufTy).Contents (Elt Ideal)) (x1 x2 : (⟨S1700000, .i32⟩ : BufTy).Contents (Elt Ideal))
  (x3 : (⟨S256x128, .f32⟩ : BufTy).Contents (Elt Ideal)) (x4 : (⟨S128, .f32⟩ : BufTy).Contents (Elt Ideal))
  (x5 : (⟨S128x64, .f32⟩ : BufTy).Contents (Elt Ideal)) (x6 : (⟨S64, .f32⟩ : BufTy).Contents (Elt Ideal))
  (x7 : (⟨S64x200, .f32⟩ : BufTy).Contents (Elt Ideal)) (x8 : (⟨S200, .f32⟩ : BufTy).Contents (Elt Ideal))

/-! ## The stages -/

/-- The reference's first product, scaled by the out-degree column, is the first transform. -/
theorem ref_H1 : val_main_v10 (F := Ideal) x0 x1 x3 = H1 x0 x1 x3 := by
  funext i
  obtain ⟨p, q, rfl⟩ : ∃ (p : Fin 100000) (q : Fin 128), i = ix2 p q := ⟨i 0, i 1, eq_ix2 i⟩
  rw [val_main_v10_apply, val_main_v0_apply, val_main_v9_apply, val_main_v8_apply, deg7]
  simp only [l0, r0, i9, i8]
  show _ = scaledProduct x0 x3 (degreeColumn x1) p q
  unfold scaledProduct
  rw [deg_entry]
  generalize degreeVec x1 = d1
  simp only [Ideal.mulf_def, Ideal.addf_def, Ideal.subf_def, Ideal.maximumf_def, Ideal.ofBits_def, Ideal.hostUnary_exp_def, Ideal.hostUnary_log_def]

/-- Its gather along the sources and scatter-add into the destinations are the aggregation. -/
theorem ref_M1 : val_main_v20 (F := Ideal) x0 x1 x2 x3 = M1 x0 x1 x2 x3 := by
  unfold val_main_v20 val_main_v17
  rw [ref_H1]
  rfl

/-- The second transform. -/
theorem ref_H2 : val_main_v45 (F := Ideal) x0 x1 x2 x3 x4 x5 = H2 x0 x1 x2 x3 x4 x5 := by
  funext i
  obtain ⟨p, q, rfl⟩ : ∃ (p : Fin 100000) (q : Fin 64), i = ix2 p q := ⟨i 0, i 1, eq_ix2 i⟩
  rw [val_main_v45_apply, val_main_v35_apply, val_main_v44_apply, val_main_v43_apply, deg42]
  simp only [l35, r35, i44, i43, n_v34_apply, n_v33_apply, n_v30_apply, val_main_v29_apply, val_main_v28_apply,
    val_main_v32_apply, val_main_v31_apply, val_main_call2_v0_apply, n_call2_cst_apply, deg27, ref_M1, i29, i28, i32, i31]
  show _ = nextTransform (M1 x0 x1 x2 x3) (degreeColumn x2) (biasRow128 x4) x5 (degreeColumn x1) p q
  unfold nextTransform rectified
  rw [deg_entry, deg_entry]
  simp only [bias128_entry]
  generalize M1 x0 x1 x2 x3 = A
  generalize degreeVec x1 = d1
  generalize degreeVec x2 = d2
  simp only [Ideal.mulf_def, Ideal.addf_def, Ideal.subf_def, Ideal.maximumf_def, Ideal.ofBits_def, Ideal.hostUnary_exp_def, Ideal.hostUnary_log_def]

/-- Its aggregation. -/
theorem ref_M2 : val_main_v55 (F := Ideal) x0 x1 x2 x3 x4 x5 = M2 x0 x1 x2 x3 x4 x5 := by
  unfold val_main_v55 val_main_v52
  rw [ref_H2]
  rfl

/-- The logits. -/
theorem ref_logits (p : Fin 100000) (q : Fin 200) :
    val_main_v73 (F := Ideal) x0 x1 x2 x3 x4 x5 x6 x7 x8 (ix2 p q)
      = logits (M2 x0 x1 x2 x3 x4 x5) (degreeColumn x2) (biasRow64 x6) x7 (biasRow200 x8) p q := by
  rw [val_main_v73_apply, val_main_v70_apply, val_main_v72_apply, val_main_v71_apply]
  simp only [l70, r70, i72, i71, n_v69_apply, n_v68_apply, n_v65_apply, val_main_v64_apply, val_main_v63_apply,
    val_main_v67_apply, val_main_v66_apply, val_main_call5_v0_apply, n_call5_cst_apply, deg62, ref_M2, i64, i63, i67, i66]
  unfold logits rectified
  rw [deg_entry, bias200_entry]
  simp only [bias64_entry]
  generalize M2 x0 x1 x2 x3 x4 x5 = A
  generalize degreeVec x2 = d2
  simp only [Ideal.mulf_def, Ideal.addf_def, Ideal.subf_def, Ideal.maximumf_def, Ideal.ofBits_def, Ideal.hostUnary_exp_def, Ideal.hostUnary_log_def]

/-- For any array of logits: the host's row maximum from minus infinity, taken once more against minus infinity, is the row
    maximum. -/
theorem host_rowMax (X : (⟨S100000x200, .f32⟩ : BufTy).Contents (Elt Ideal)) (p : Fin 100000) :
    FloatOps.maximumf (F := Ideal) (φ := .f32) (val_main_call6_cst_0 (F := Ideal) (idx_main_call6_v1 (ix1 p)))
        (Host.reduce (FloatOps.maximumf (F := Ideal) (φ := .f32)) X (val_main_call6_cst (F := Ideal)) reducesTo_S100000x200_S100000_d1 h_S_ (ix1 p))
      = rowMax (fun p r => X (ix2 p r)) p := by
  rw [Host.reduce_eq_fold_single (FloatOps.maximumf (F := Ideal) (φ := .f32)) X (val_main_call6_cst (F := Ideal)) reducesTo_S100000x200_S100000_d1 (by decide) h_S_ (ix1 p)]
  refine Eq.trans ?_ (max_bot_rowMax (fun p r => X (ix2 p r)) p)
  refine congrArg (max (Ideal.ofBits .f32 0xFF800000#32)) ?_
  unfold rowMax
  refine Finset.fold_congr fun k _ => congrArg X ?_
  funext a; apply Fin.ext
  match a with
  | ⟨0, _⟩ => rfl
  | ⟨1, _⟩ => rfl

/-- The reference's row maximum is the row maximum of its logits. -/
theorem ref_rowMax (p : Fin 100000) :
    val_main_call6_v2 (F := Ideal) x0 x1 x2 x3 x4 x5 x6 x7 x8 (ix1 p)
      = rowMax (fun p r => val_main_v73 (F := Ideal) x0 x1 x2 x3 x4 x5 x6 x7 x8 (ix2 p r)) p := by
  rw [val_main_call6_v2_apply, val_main_call6_v1_apply]
  unfold val_main_call6_v0
  generalize val_main_v73 (F := Ideal) x0 x1 x2 x3 x4 x5 x6 x7 x8 = X
  exact host_rowMax X p

/-- The reference's result is the program's result function of the arguments. -/
theorem ref_result : val_main_v74 (F := Ideal) x0 x1 x2 x3 x4 x5 x6 x7 x8 = result x0 x1 x2 x3 x4 x5 x6 x7 x8 := by
  funext i
  obtain ⟨p, q, rfl⟩ : ∃ (p : Fin 100000) (q : Fin 200), i = ix2 p q := ⟨i 0, i 1, eq_ix2 i⟩
  have hL : logits (M2 x0 x1 x2 x3 x4 x5) (degreeColumn x2) (biasRow64 x6) x7 (biasRow200 x8)
      = fun p r => val_main_v73 (F := Ideal) x0 x1 x2 x3 x4 x5 x6 x7 x8 (ix2 p r) :=
    funext fun p => funext fun r => (ref_logits x0 x1 x2 x3 x4 x5 x6 x7 x8 p r).symm
  show _ = logSoftmax (logits (M2 x0 x1 x2 x3 x4 x5) (degreeColumn x2) (biasRow64 x6) x7 (biasRow200 x8)) p q
  rw [hL, val_main_v74_apply, val_main_call6_v10_apply, val_main_call6_v9_apply, val_main_call6_v8_apply, val_main_call6_v7_apply,
    val_main_call6_v5_apply, val_main_call6_v4_apply, val_main_call6_v3_apply]
  simp only [ic10, ic8, ic4, ic3, ic7, n_call6_v6_apply, n_call6_v5_apply, val_main_call6_v4_apply, val_main_call6_v3_apply,
    n_call6_cst_1_apply, ref_rowMax]
  unfold logSoftmax
  generalize val_main_v73 (F := Ideal) x0 x1 x2 x3 x4 x5 x6 x7 x8 = X
  simp only [Ideal.mulf_def, Ideal.addf_def, Ideal.subf_def, Ideal.maximumf_def, Ideal.ofBits_def, Ideal.hostUnary_exp_def, Ideal.hostUnary_log_def, Ideal.ofBits_zero_f32, zero_add]

end Cert.ReferenceIdeal.Bridge

end
-- ==== Proof.KernelRun.lean ====
/-
  The idealized kernel's whole run, with the result named.

  The program is three pipelined regions among stretches of host operations.  Every weakly fair execution ends, and in
  the final state each TensorCore's result buffer holds what the last boundary of that chain of segments leaves in it,
  while the nine argument arrays are as launched.  The contents at the last boundary are a fold through the program:
  each host stretch applies its operations, each region replaces its windows' arrays by what its write-backs leave.
-/
import proofs.«102556_j18459769438249_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends without a fault; the result buffer then holds the contents the last
    segment boundary gives it, and every argument array is unchanged. -/
theorem run_named : θ_run defs (onTc (τ := τ) (main (F := F))) ⟨m, fun _ => 0, ρ⟩ (fun r => ∀ c : Dev nD,
      r.2.mem ((c.tc : Thread nD τ).loc main_v43) = W10 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v43 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.Whole

end
-- ==== Proof.Fold.lean ====
/-
  The result buffer of the idealized kernel, read back through the program to the arguments.

  The program's buffers at each of its segment boundaries are a fold from the launch memory: a host stretch applies its
  operations, a region replaces its windows' arrays by what its write-backs leave and keeps every other buffer.  Read at
  the buffers the regions use, the fold gives: the two degree columns and the three bias rows from the opening stretches;
  the first transform from region 0; its aggregation along the edges from the next stretch; the second transform from
  region 1; its aggregation; and the log-softmax of the logits from region 2 — each the named function of the argument
  arrays as launched, since no segment writes an argument.
-/
import proofs.«102556_j18459769438249_2_alg».proof.Proof.Gen.KernelIdeal.Frame
import proofs.«102556_j18459769438249_2_alg».proof.Proof.Region0
import proofs.«102556_j18459769438249_2_alg».proof.Proof.Region1
import proofs.«102556_j18459769438249_2_alg».proof.Proof.Region2
import proofs.«102556_j18459769438249_2_alg».proof.Proof.HostFns
import proofs.«102556_j18459769438249_2_alg».proof.Proof.Stages
import Idealize.ShloMosaic.Lib.StableHlo.Run

set_option maxRecDepth 16384

noncomputable section

namespace Cert.KernelIdeal.Fold

open Cert.KernelIdeal Cert.KernelIdeal.Gen Cert.KernelIdeal.HostFns Cert.KernelIdeal.Stages
open Idealize.ShloMosaic Idealize.ShloMosaic.TcCoe Idealize.SL.Sem Idealize.ShloMosaic.StableHlo
open Idealize.ShloMosaic.Pipeline (Dat)

/-! ## What each host stretch does, for any contents at its entry -/

section Stretches

variable (V : Valuation τ sig (Elt Ideal))

/-- The first stretch counts, per node, the edges whose source names it. -/
theorem count_src : @Eq ((⟨S100000, .f32⟩ : BufTy).Contents (Elt Ideal)) (StableHlo.after hostOps0 V (Proc.devRef .tc main_v3))
    (Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0 (V (Proc.devRef .tc main_arg1)))
        (broadcastInDim S1700000 ![] bcast_S_S1700000 (constant (F := Ideal) S_ .f32 0x3F800000#32))) := by
  after_results
  try rfl
theorem one_src : @Eq ((⟨S_, .f32⟩ : BufTy).Contents (Elt Ideal)) (StableHlo.after hostOps0 V (Proc.devRef .tc main_cst_1)) (constant (F := Ideal) S_ .f32 0x3F800000#32) := by
  after_results
  try rfl
/-- The second takes the maximum with one. -/
theorem clip_src : @Eq ((⟨S100000, .f32⟩ : BufTy).Contents (Elt Ideal)) (StableHlo.after hostOps0_1 V (Proc.devRef .tc main_v4))
    (maximumf (F := Ideal) (s := S100000) (φ := .f32) (broadcastInDim S100000 ![] bcast_S_S100000 (V (Proc.devRef .tc main_cst_1))) (V (Proc.devRef .tc main_v3))) := by
  after_results
  try rfl
/-- The third raises it to the power −1/2 and lays it out as a column; it also counts the edges by destination. -/
theorem power_src : @Eq ((⟨S100000x1, .f32⟩ : BufTy).Contents (Elt Ideal)) (StableHlo.after hostOps0_2 V (Proc.devRef .tc main_v7))
    (shapeCast S100000x1 (Host.powf (F := Ideal) (s := S100000) (φ := .f32) (V (Proc.devRef .tc main_v4))
        (broadcastInDim S100000 ![] bcast_S_S100000 (constant (F := Ideal) S_ .f32 0xBF000000#32))) shapeCasts_S100000_S100000x1) := by
  after_results
  try rfl
theorem count_dst : @Eq ((⟨S100000, .f32⟩ : BufTy).Contents (Elt Ideal)) (StableHlo.after hostOps0_2 V (Proc.devRef .tc main_v11))
    (Host.scatterAdd (F := Ideal) scatter_S100000_S1700000x1_S1700000_n_0_0_1
        (broadcastInDim S100000 ![] bcast_S_S100000 (constant (F := Ideal) S_ .f32 0x00000000#32))
        (broadcastInDim S1700000x1 ![0] bcast_S1700000_S1700000x1_0 (V (Proc.devRef .tc main_arg2)))
        (broadcastInDim S1700000 ![] bcast_S_S1700000 (constant (F := Ideal) S_ .f32 0x3F800000#32))) := by
  after_results
  try rfl
theorem one_dst : @Eq ((⟨S_, .f32⟩ : BufTy).Contents (Elt Ideal)) (StableHlo.after hostOps0_2 V (Proc.devRef .tc main_cst_5)) (constant (F := Ideal) S_ .f32 0x3F800000#32) := by
  after_results
  try rfl
/-- The fourth takes the maximum with one. -/
theorem clip_dst : @Eq ((⟨S100000, .f32⟩ : BufTy).Contents (Elt Ideal)) (StableHlo.after hostOps0_3 V (Proc.devRef .tc main_v12))
    (maximumf (F := Ideal) (s := S100000) (φ := .f32) (broadcastInDim S100000 ![] bcast_S_S100000 (V (Proc.devRef .tc main_cst_5))) (V (Proc.devRef .tc main_v11))) := by
  after_results
  try rfl
/-- The fifth raises it to the power −1/2 and lays it out as a column, and lays the three bias vectors out as rows. -/
theorem power_dst : @Eq ((⟨S100000x1, .f32⟩ : BufTy).Contents (Elt Ideal)) (StableHlo.after hostOps0_4 V (Proc.devRef .tc main_v15))
    (shapeCast S100000x1 (Host.powf (F := Ideal) (s := S100000) (φ := .f32) (V (Proc.devRef .tc main_v12))
        (broadcastInDim S100000 ![] bcast_S_S100000 (constant (F := Ideal) S_ .f32 0xBF000000#32))) shapeCasts_S100000_S100000x1) := by
  after_results
  try rfl
theorem row128 : @Eq ((⟨S1x128, .f32⟩ : BufTy).Contents (Elt Ideal)) (StableHlo.after hostOps0_4 V (Proc.devRef .tc main_v16)) (biasRow128 (V (Proc.devRef .tc main_arg4))) := by
  after_results
  try rfl
theorem row64 : @Eq ((⟨S1x64, .f32⟩ : BufTy).Contents (Elt Ideal)) (StableHlo.after hostOps0_4 V (Proc.devRef .tc main_v17)) (biasRow64 (V (Proc.devRef .tc main_arg6))) := by
  after_results
  try rfl
theorem row200 : @Eq ((⟨S1x200, .f32⟩ : BufTy).Contents (Elt Ideal)) (StableHlo.after hostOps0_4 V (Proc.devRef .tc main_v18)) (biasRow200 (V (Proc.devRef .tc main_arg8))) := by
  after_results
  try rfl
/-- The stretch between regions 0 and 1 aggregates the first transform along the edges. -/
theorem aggregate1 : @Eq ((⟨S100000x128, .f32⟩ : BufTy).Contents (Elt Ideal)) (StableHlo.after hostOps1 V (Proc.devRef .tc main_v30))
    (agg128 (V (Proc.devRef .tc main_arg1)) (V (Proc.devRef .tc main_arg2)) (V (Proc.devRef .tc main_v19))) := by
  after_results
  try rfl
/-- The stretch between regions 1 and 2 aggregates the second transform along the edges. -/
theorem aggregate2 : @Eq ((⟨S100000x64, .f32⟩ : BufTy).Contents (Elt Ideal)) (StableHlo.after hostOps2 V (Proc.devRef .tc main_v42))
    (agg64 (V (Proc.devRef .tc main_arg1)) (V (Proc.devRef .tc main_arg2)) (V (Proc.devRef .tc main_v31))) := by
  after_results
  try rfl

end Stretches

/-! ## The fold, buffer by buffer -/

/-- A host stretch leaves a buffer it does not write as it found it. -/
macro "unwritten" : tactic => `(tactic| exact StableHlo.after_of_forall_not_mem _ _ (List.forall_iff_forall_mem.mp (by
  simp only [hostOps0, hostOps0_1, hostOps0_2, hostOps0_3, hostOps0_4, hostOps1, hostOps2, List.Forall, StableHlo.nullary_writes,
    StableHlo.unary_writes, StableHlo.binary_writes, StableHlo.ternary_writes, StableHlo.quaternary_writes, StableHlo.reshape_writes,
    StableHlo.binaryIndexed_writes, Finset.mem_singleton]
  repeat' apply And.intro
  all_goals exact StableHlo.devRef_ne_of_ne (by decide))))

variable (m : (ℓ : Loc nD τ sig) → Buf (Elt Ideal) ℓ) (ρ : Dev nD → PrngReg) (c : Dev nD)

/-! ### Through the opening stretches -/
theorem at0_arg0 : W0 m ρ c (Proc.devRef .tc main_arg0) = (m ((c : Thread nD τ).loc main_arg0)) := rfl
theorem at1_arg0 : W1 m ρ c (Proc.devRef .tc main_arg0) = (m ((c : Thread nD τ).loc main_arg0)) :=
  (show W1 m ρ c (Proc.devRef .tc main_arg0) = W0 m ρ c (Proc.devRef .tc main_arg0) by unwritten).trans (at0_arg0 m ρ c)
theorem at2_arg0 : W2 m ρ c (Proc.devRef .tc main_arg0) = (m ((c : Thread nD τ).loc main_arg0)) :=
  (show W2 m ρ c (Proc.devRef .tc main_arg0) = W1 m ρ c (Proc.devRef .tc main_arg0) by unwritten).trans (at1_arg0 m ρ c)
theorem at3_arg0 : W3 m ρ c (Proc.devRef .tc main_arg0) = (m ((c : Thread nD τ).loc main_arg0)) :=
  (show W3 m ρ c (Proc.devRef .tc main_arg0) = W2 m ρ c (Proc.devRef .tc main_arg0) by unwritten).trans (at2_arg0 m ρ c)
theorem at4_arg0 : W4 m ρ c (Proc.devRef .tc main_arg0) = (m ((c : Thread nD τ).loc main_arg0)) :=
  (show W4 m ρ c (Proc.devRef .tc main_arg0) = W3 m ρ c (Proc.devRef .tc main_arg0) by unwritten).trans (at3_arg0 m ρ c)
theorem at5_arg0 : W5 m ρ c (Proc.devRef .tc main_arg0) = (m ((c : Thread nD τ).loc main_arg0)) :=
  (show W5 m ρ c (Proc.devRef .tc main_arg0) = W4 m ρ c (Proc.devRef .tc main_arg0) by unwritten).trans (at4_arg0 m ρ c)
theorem at0_arg1 : W0 m ρ c (Proc.devRef .tc main_arg1) = (m ((c : Thread nD τ).loc main_arg1)) := rfl
theorem at1_arg1 : W1 m ρ c (Proc.devRef .tc main_arg1) = (m ((c : Thread nD τ).loc main_arg1)) :=
  (show W1 m ρ c (Proc.devRef .tc main_arg1) = W0 m ρ c (Proc.devRef .tc main_arg1) by unwritten).trans (at0_arg1 m ρ c)
theorem at2_arg1 : W2 m ρ c (Proc.devRef .tc main_arg1) = (m ((c : Thread nD τ).loc main_arg1)) :=
  (show W2 m ρ c (Proc.devRef .tc main_arg1) = W1 m ρ c (Proc.devRef .tc main_arg1) by unwritten).trans (at1_arg1 m ρ c)
theorem at3_arg1 : W3 m ρ c (Proc.devRef .tc main_arg1) = (m ((c : Thread nD τ).loc main_arg1)) :=
  (show W3 m ρ c (Proc.devRef .tc main_arg1) = W2 m ρ c (Proc.devRef .tc main_arg1) by unwritten).trans (at2_arg1 m ρ c)
theorem at4_arg1 : W4 m ρ c (Proc.devRef .tc main_arg1) = (m ((c : Thread nD τ).loc main_arg1)) :=
  (show W4 m ρ c (Proc.devRef .tc main_arg1) = W3 m ρ c (Proc.devRef .tc main_arg1) by unwritten).trans (at3_arg1 m ρ c)
theorem at5_arg1 : W5 m ρ c (Proc.devRef .tc main_arg1) = (m ((c : Thread nD τ).loc main_arg1)) :=
  (show W5 m ρ c (Proc.devRef .tc main_arg1) = W4 m ρ c (Proc.devRef .tc main_arg1) by unwritten).trans (at4_arg1 m ρ c)
theorem at0_arg2 : W0 m ρ c (Proc.devRef .tc main_arg2) = (m ((c : Thread nD τ).loc main_arg2)) := rfl
theorem at1_arg2 : W1 m ρ c (Proc.devRef .tc main_arg2) = (m ((c : Thread nD τ).loc main_arg2)) :=
  (show W1 m ρ c (Proc.devRef .tc main_arg2) = W0 m ρ c (Proc.devRef .tc main_arg2) by unwritten).trans (at0_arg2 m ρ c)
theorem at2_arg2 : W2 m ρ c (Proc.devRef .tc main_arg2) = (m ((c : Thread nD τ).loc main_arg2)) :=
  (show W2 m ρ c (Proc.devRef .tc main_arg2) = W1 m ρ c (Proc.devRef .tc main_arg2) by unwritten).trans (at1_arg2 m ρ c)
theorem at3_arg2 : W3 m ρ c (Proc.devRef .tc main_arg2) = (m ((c : Thread nD τ).loc main_arg2)) :=
  (show W3 m ρ c (Proc.devRef .tc main_arg2) = W2 m ρ c (Proc.devRef .tc main_arg2) by unwritten).trans (at2_arg2 m ρ c)
theorem at4_arg2 : W4 m ρ c (Proc.devRef .tc main_arg2) = (m ((c : Thread nD τ).loc main_arg2)) :=
  (show W4 m ρ c (Proc.devRef .tc main_arg2) = W3 m ρ c (Proc.devRef .tc main_arg2) by unwritten).trans (at3_arg2 m ρ c)
theorem at5_arg2 : W5 m ρ c (Proc.devRef .tc main_arg2) = (m ((c : Thread nD τ).loc main_arg2)) :=
  (show W5 m ρ c (Proc.devRef .tc main_arg2) = W4 m ρ c (Proc.devRef .tc main_arg2) by unwritten).trans (at4_arg2 m ρ c)
theorem at0_arg3 : W0 m ρ c (Proc.devRef .tc main_arg3) = (m ((c : Thread nD τ).loc main_arg3)) := rfl
theorem at1_arg3 : W1 m ρ c (Proc.devRef .tc main_arg3) = (m ((c : Thread nD τ).loc main_arg3)) :=
  (show W1 m ρ c (Proc.devRef .tc main_arg3) = W0 m ρ c (Proc.devRef .tc main_arg3) by unwritten).trans (at0_arg3 m ρ c)
theorem at2_arg3 : W2 m ρ c (Proc.devRef .tc main_arg3) = (m ((c : Thread nD τ).loc main_arg3)) :=
  (show W2 m ρ c (Proc.devRef .tc main_arg3) = W1 m ρ c (Proc.devRef .tc main_arg3) by unwritten).trans (at1_arg3 m ρ c)
theorem at3_arg3 : W3 m ρ c (Proc.devRef .tc main_arg3) = (m ((c : Thread nD τ).loc main_arg3)) :=
  (show W3 m ρ c (Proc.devRef .tc main_arg3) = W2 m ρ c (Proc.devRef .tc main_arg3) by unwritten).trans (at2_arg3 m ρ c)
theorem at4_arg3 : W4 m ρ c (Proc.devRef .tc main_arg3) = (m ((c : Thread nD τ).loc main_arg3)) :=
  (show W4 m ρ c (Proc.devRef .tc main_arg3) = W3 m ρ c (Proc.devRef .tc main_arg3) by unwritten).trans (at3_arg3 m ρ c)
theorem at5_arg3 : W5 m ρ c (Proc.devRef .tc main_arg3) = (m ((c : Thread nD τ).loc main_arg3)) :=
  (show W5 m ρ c (Proc.devRef .tc main_arg3) = W4 m ρ c (Proc.devRef .tc main_arg3) by unwritten).trans (at4_arg3 m ρ c)
theorem at0_arg4 : W0 m ρ c (Proc.devRef .tc main_arg4) = (m ((c : Thread nD τ).loc main_arg4)) := rfl
theorem at1_arg4 : W1 m ρ c (Proc.devRef .tc main_arg4) = (m ((c : Thread nD τ).loc main_arg4)) :=
  (show W1 m ρ c (Proc.devRef .tc main_arg4) = W0 m ρ c (Proc.devRef .tc main_arg4) by unwritten).trans (at0_arg4 m ρ c)
theorem at2_arg4 : W2 m ρ c (Proc.devRef .tc main_arg4) = (m ((c : Thread nD τ).loc main_arg4)) :=
  (show W2 m ρ c (Proc.devRef .tc main_arg4) = W1 m ρ c (Proc.devRef .tc main_arg4) by unwritten).trans (at1_arg4 m ρ c)
theorem at3_arg4 : W3 m ρ c (Proc.devRef .tc main_arg4) = (m ((c : Thread nD τ).loc main_arg4)) :=
  (show W3 m ρ c (Proc.devRef .tc main_arg4) = W2 m ρ c (Proc.devRef .tc main_arg4) by unwritten).trans (at2_arg4 m ρ c)
theorem at4_arg4 : W4 m ρ c (Proc.devRef .tc main_arg4) = (m ((c : Thread nD τ).loc main_arg4)) :=
  (show W4 m ρ c (Proc.devRef .tc main_arg4) = W3 m ρ c (Proc.devRef .tc main_arg4) by unwritten).trans (at3_arg4 m ρ c)
theorem at5_arg4 : W5 m ρ c (Proc.devRef .tc main_arg4) = (m ((c : Thread nD τ).loc main_arg4)) :=
  (show W5 m ρ c (Proc.devRef .tc main_arg4) = W4 m ρ c (Proc.devRef .tc main_arg4) by unwritten).trans (at4_arg4 m ρ c)
theorem at0_arg5 : W0 m ρ c (Proc.devRef .tc main_arg5) = (m ((c : Thread nD τ).loc main_arg5)) := rfl
theorem at1_arg5 : W1 m ρ c (Proc.devRef .tc main_arg5) = (m ((c : Thread nD τ).loc main_arg5)) :=
  (show W1 m ρ c (Proc.devRef .tc main_arg5) = W0 m ρ c (Proc.devRef .tc main_arg5) by unwritten).trans (at0_arg5 m ρ c)
theorem at2_arg5 : W2 m ρ c (Proc.devRef .tc main_arg5) = (m ((c : Thread nD τ).loc main_arg5)) :=
  (show W2 m ρ c (Proc.devRef .tc main_arg5) = W1 m ρ c (Proc.devRef .tc main_arg5) by unwritten).trans (at1_arg5 m ρ c)
theorem at3_arg5 : W3 m ρ c (Proc.devRef .tc main_arg5) = (m ((c : Thread nD τ).loc main_arg5)) :=
  (show W3 m ρ c (Proc.devRef .tc main_arg5) = W2 m ρ c (Proc.devRef .tc main_arg5) by unwritten).trans (at2_arg5 m ρ c)
theorem at4_arg5 : W4 m ρ c (Proc.devRef .tc main_arg5) = (m ((c : Thread nD τ).loc main_arg5)) :=
  (show W4 m ρ c (Proc.devRef .tc main_arg5) = W3 m ρ c (Proc.devRef .tc main_arg5) by unwritten).trans (at3_arg5 m ρ c)
theorem at5_arg5 : W5 m ρ c (Proc.devRef .tc main_arg5) = (m ((c : Thread nD τ).loc main_arg5)) :=
  (show W5 m ρ c (Proc.devRef .tc main_arg5) = W4 m ρ c (Proc.devRef .tc main_arg5) by unwritten).trans (at4_arg5 m ρ c)
theorem at0_arg6 : W0 m ρ c (Proc.devRef .tc main_arg6) = (m ((c : Thread nD τ).loc main_arg6)) := rfl
theorem at1_arg6 : W1 m ρ c (Proc.devRef .tc main_arg6) = (m ((c : Thread nD τ).loc main_arg6)) :=
  (show W1 m ρ c (Proc.devRef .tc main_arg6) = W0 m ρ c (Proc.devRef .tc main_arg6) by unwritten).trans (at0_arg6 m ρ c)
theorem at2_arg6 : W2 m ρ c (Proc.devRef .tc main_arg6) = (m ((c : Thread nD τ).loc main_arg6)) :=
  (show W2 m ρ c (Proc.devRef .tc main_arg6) = W1 m ρ c (Proc.devRef .tc main_arg6) by unwritten).trans (at1_arg6 m ρ c)
theorem at3_arg6 : W3 m ρ c (Proc.devRef .tc main_arg6) = (m ((c : Thread nD τ).loc main_arg6)) :=
  (show W3 m ρ c (Proc.devRef .tc main_arg6) = W2 m ρ c (Proc.devRef .tc main_arg6) by unwritten).trans (at2_arg6 m ρ c)
theorem at4_arg6 : W4 m ρ c (Proc.devRef .tc main_arg6) = (m ((c : Thread nD τ).loc main_arg6)) :=
  (show W4 m ρ c (Proc.devRef .tc main_arg6) = W3 m ρ c (Proc.devRef .tc main_arg6) by unwritten).trans (at3_arg6 m ρ c)
theorem at5_arg6 : W5 m ρ c (Proc.devRef .tc main_arg6) = (m ((c : Thread nD τ).loc main_arg6)) :=
  (show W5 m ρ c (Proc.devRef .tc main_arg6) = W4 m ρ c (Proc.devRef .tc main_arg6) by unwritten).trans (at4_arg6 m ρ c)
theorem at0_arg7 : W0 m ρ c (Proc.devRef .tc main_arg7) = (m ((c : Thread nD τ).loc main_arg7)) := rfl
theorem at1_arg7 : W1 m ρ c (Proc.devRef .tc main_arg7) = (m ((c : Thread nD τ).loc main_arg7)) :=
  (show W1 m ρ c (Proc.devRef .tc main_arg7) = W0 m ρ c (Proc.devRef .tc main_arg7) by unwritten).trans (at0_arg7 m ρ c)
theorem at2_arg7 : W2 m ρ c (Proc.devRef .tc main_arg7) = (m ((c : Thread nD τ).loc main_arg7)) :=
  (show W2 m ρ c (Proc.devRef .tc main_arg7) = W1 m ρ c (Proc.devRef .tc main_arg7) by unwritten).trans (at1_arg7 m ρ c)
theorem at3_arg7 : W3 m ρ c (Proc.devRef .tc main_arg7) = (m ((c : Thread nD τ).loc main_arg7)) :=
  (show W3 m ρ c (Proc.devRef .tc main_arg7) = W2 m ρ c (Proc.devRef .tc main_arg7) by unwritten).trans (at2_arg7 m ρ c)
theorem at4_arg7 : W4 m ρ c (Proc.devRef .tc main_arg7) = (m ((c : Thread nD τ).loc main_arg7)) :=
  (show W4 m ρ c (Proc.devRef .tc main_arg7) = W3 m ρ c (Proc.devRef .tc main_arg7) by unwritten).trans (at3_arg7 m ρ c)
theorem at5_arg7 : W5 m ρ c (Proc.devRef .tc main_arg7) = (m ((c : Thread nD τ).loc main_arg7)) :=
  (show W5 m ρ c (Proc.devRef .tc main_arg7) = W4 m ρ c (Proc.devRef .tc main_arg7) by unwritten).trans (at4_arg7 m ρ c)
theorem at0_arg8 : W0 m ρ c (Proc.devRef .tc main_arg8) = (m ((c : Thread nD τ).loc main_arg8)) := rfl
theorem at1_arg8 : W1 m ρ c (Proc.devRef .tc main_arg8) = (m ((c : Thread nD τ).loc main_arg8)) :=
  (show W1 m ρ c (Proc.devRef .tc main_arg8) = W0 m ρ c (Proc.devRef .tc main_arg8) by unwritten).trans (at0_arg8 m ρ c)
theorem at2_arg8 : W2 m ρ c (Proc.devRef .tc main_arg8) = (m ((c : Thread nD τ).loc main_arg8)) :=
  (show W2 m ρ c (Proc.devRef .tc main_arg8) = W1 m ρ c (Proc.devRef .tc main_arg8) by unwritten).trans (at1_arg8 m ρ c)
theorem at3_arg8 : W3 m ρ c (Proc.devRef .tc main_arg8) = (m ((c : Thread nD τ).loc main_arg8)) :=
  (show W3 m ρ c (Proc.devRef .tc main_arg8) = W2 m ρ c (Proc.devRef .tc main_arg8) by unwritten).trans (at2_arg8 m ρ c)
theorem at4_arg8 : W4 m ρ c (Proc.devRef .tc main_arg8) = (m ((c : Thread nD τ).loc main_arg8)) :=
  (show W4 m ρ c (Proc.devRef .tc main_arg8) = W3 m ρ c (Proc.devRef .tc main_arg8) by unwritten).trans (at3_arg8 m ρ c)
theorem at5_arg8 : W5 m ρ c (Proc.devRef .tc main_arg8) = (m ((c : Thread nD τ).loc main_arg8)) :=
  (show W5 m ρ c (Proc.devRef .tc main_arg8) = W4 m ρ c (Proc.devRef .tc main_arg8) by unwritten).trans (at4_arg8 m ρ c)

/-- The out-degree column at region 0's entry. -/
theorem at5_v7 : W5 m ρ c (Proc.devRef .tc main_v7) = degreeColumn (m ((c : Thread nD τ).loc main_arg1)) := by
  have h5 : W5 m ρ c (Proc.devRef .tc main_v7) = W4 m ρ c (Proc.devRef .tc main_v7) := by unwritten
  have h4 : W4 m ρ c (Proc.devRef .tc main_v7) = W3 m ρ c (Proc.devRef .tc main_v7) := by unwritten
  rw [h5, h4]
  refine (power_src (W2 m ρ c)).trans ?_
  have e4 : W2 m ρ c (Proc.devRef .tc main_v4) = _ := clip_src (W1 m ρ c)
  have e1 : W1 m ρ c (Proc.devRef .tc main_cst_1) = _ := one_src (W0 m ρ c)
  have e3 : W1 m ρ c (Proc.devRef .tc main_v3) = _ := count_src (W0 m ρ c)
  rw [e4, e1, e3, at0_arg1]
  rfl

/-- The in-degree column at region 0's entry. -/
theorem at5_v15 : W5 m ρ c (Proc.devRef .tc main_v15) = degreeColumn (m ((c : Thread nD τ).loc main_arg2)) := by
  refine (power_dst (W4 m ρ c)).trans ?_
  have e12 : W4 m ρ c (Proc.devRef .tc main_v12) = _ := clip_dst (W3 m ρ c)
  have e5 : W3 m ρ c (Proc.devRef .tc main_cst_5) = _ := one_dst (W2 m ρ c)
  have e11 : W3 m ρ c (Proc.devRef .tc main_v11) = _ := count_dst (W2 m ρ c)
  rw [e12, e5, e11, at2_arg2]
  rfl

theorem at5_v16 : W5 m ρ c (Proc.devRef .tc main_v16) = biasRow128 (m ((c : Thread nD τ).loc main_arg4)) := by
  refine (row128 (W4 m ρ c)).trans ?_
  rw [at4_arg4]
theorem at5_v17 : W5 m ρ c (Proc.devRef .tc main_v17) = biasRow64 (m ((c : Thread nD τ).loc main_arg6)) := by
  refine (row64 (W4 m ρ c)).trans ?_
  rw [at4_arg6]
theorem at5_v18 : W5 m ρ c (Proc.devRef .tc main_v18) = biasRow200 (m ((c : Thread nD τ).loc main_arg8)) := by
  refine (row200 (W4 m ρ c)).trans ?_
  rw [at4_arg8]

/-! ### At region 0's exit -/
theorem at6_v19 : W6 m ρ c (Proc.devRef .tc main_v19) = H1 (m ((c : Thread nD τ).loc main_arg0)) (m ((c : Thread nD τ).loc main_arg1)) (m ((c : Thread nD τ).loc main_arg3)) := by
  refine (W6_arr m ρ c 3).trans ((Region0.final (V5 m ρ) c).trans ?_)
  have e0 : V5 m ρ c main_arg0 = (m ((c : Thread nD τ).loc main_arg0)) := at5_arg0 m ρ c
  have e3 : V5 m ρ c main_arg3 = (m ((c : Thread nD τ).loc main_arg3)) := at5_arg3 m ρ c
  have e7 : V5 m ρ c main_v7 = degreeColumn (m ((c : Thread nD τ).loc main_arg1)) := at5_v7 m ρ c
  rw [e0, e3, e7]
  rfl
theorem at6_v7 : W6 m ρ c (Proc.devRef .tc main_v7) = degreeColumn (m ((c : Thread nD τ).loc main_arg1)) :=
  ((W6_arr m ρ c 2).trans (((dat0 (V5 m ρ) c).arrAt_in 2 rfl _).trans (A_eq0 (V5 m ρ) c 2))).trans (at5_v7 m ρ c)
theorem at6_arg1 : W6 m ρ c (Proc.devRef .tc main_arg1) = (m ((c : Thread nD τ).loc main_arg1)) := (W6_of_ne m ρ c main_arg1 (by decide)).trans (at5_arg1 m ρ c)
theorem at6_arg2 : W6 m ρ c (Proc.devRef .tc main_arg2) = (m ((c : Thread nD τ).loc main_arg2)) := (W6_of_ne m ρ c main_arg2 (by decide)).trans (at5_arg2 m ρ c)
theorem at6_arg5 : W6 m ρ c (Proc.devRef .tc main_arg5) = (m ((c : Thread nD τ).loc main_arg5)) := (W6_of_ne m ρ c main_arg5 (by decide)).trans (at5_arg5 m ρ c)
theorem at6_arg7 : W6 m ρ c (Proc.devRef .tc main_arg7) = (m ((c : Thread nD τ).loc main_arg7)) := (W6_of_ne m ρ c main_arg7 (by decide)).trans (at5_arg7 m ρ c)
theorem at6_v15 : W6 m ρ c (Proc.devRef .tc main_v15) = degreeColumn (m ((c : Thread nD τ).loc main_arg2)) := (W6_of_ne m ρ c main_v15 (by decide)).trans (at5_v15 m ρ c)
theorem at6_v16 : W6 m ρ c (Proc.devRef .tc main_v16) = biasRow128 (m ((c : Thread nD τ).loc main_arg4)) := (W6_of_ne m ρ c main_v16 (by decide)).trans (at5_v16 m ρ c)
theorem at6_v17 : W6 m ρ c (Proc.devRef .tc main_v17) = biasRow64 (m ((c : Thread nD τ).loc main_arg6)) := (W6_of_ne m ρ c main_v17 (by decide)).trans (at5_v17 m ρ c)
theorem at6_v18 : W6 m ρ c (Proc.devRef .tc main_v18) = biasRow200 (m ((c : Thread nD τ).loc main_arg8)) := (W6_of_ne m ρ c main_v18 (by decide)).trans (at5_v18 m ρ c)

/-! ### At region 1's entry -/
theorem at7_v30 : W7 m ρ c (Proc.devRef .tc main_v30) = M1 (m ((c : Thread nD τ).loc main_arg0)) (m ((c : Thread nD τ).loc main_arg1)) (m ((c : Thread nD τ).loc main_arg2)) (m ((c : Thread nD τ).loc main_arg3)) := by
  refine (aggregate1 (W6 m ρ c)).trans ?_
  rw [at6_arg1, at6_arg2, at6_v19]
  rfl
theorem at7_arg1 : W7 m ρ c (Proc.devRef .tc main_arg1) = (m ((c : Thread nD τ).loc main_arg1)) :=
  (show W7 m ρ c (Proc.devRef .tc main_arg1) = W6 m ρ c (Proc.devRef .tc main_arg1) by unwritten).trans (at6_arg1 m ρ c)
theorem at7_arg2 : W7 m ρ c (Proc.devRef .tc main_arg2) = (m ((c : Thread nD τ).loc main_arg2)) :=
  (show W7 m ρ c (Proc.devRef .tc main_arg2) = W6 m ρ c (Proc.devRef .tc main_arg2) by unwritten).trans (at6_arg2 m ρ c)
theorem at7_arg5 : W7 m ρ c (Proc.devRef .tc main_arg5) = (m ((c : Thread nD τ).loc main_arg5)) :=
  (show W7 m ρ c (Proc.devRef .tc main_arg5) = W6 m ρ c (Proc.devRef .tc main_arg5) by unwritten).trans (at6_arg5 m ρ c)
theorem at7_arg7 : W7 m ρ c (Proc.devRef .tc main_arg7) = (m ((c : Thread nD τ).loc main_arg7)) :=
  (show W7 m ρ c (Proc.devRef .tc main_arg7) = W6 m ρ c (Proc.devRef .tc main_arg7) by unwritten).trans (at6_arg7 m ρ c)
theorem at7_v7 : W7 m ρ c (Proc.devRef .tc main_v7) = degreeColumn (m ((c : Thread nD τ).loc main_arg1)) :=
  (show W7 m ρ c (Proc.devRef .tc main_v7) = W6 m ρ c (Proc.devRef .tc main_v7) by unwritten).trans (at6_v7 m ρ c)
theorem at7_v15 : W7 m ρ c (Proc.devRef .tc main_v15) = degreeColumn (m ((c : Thread nD τ).loc main_arg2)) :=
  (show W7 m ρ c (Proc.devRef .tc main_v15) = W6 m ρ c (Proc.devRef .tc main_v15) by unwritten).trans (at6_v15 m ρ c)
theorem at7_v16 : W7 m ρ c (Proc.devRef .tc main_v16) = biasRow128 (m ((c : Thread nD τ).loc main_arg4)) :=
  (show W7 m ρ c (Proc.devRef .tc main_v16) = W6 m ρ c (Proc.devRef .tc main_v16) by unwritten).trans (at6_v16 m ρ c)
theorem at7_v17 : W7 m ρ c (Proc.devRef .tc main_v17) = biasRow64 (m ((c : Thread nD τ).loc main_arg6)) :=
  (show W7 m ρ c (Proc.devRef .tc main_v17) = W6 m ρ c (Proc.devRef .tc main_v17) by unwritten).trans (at6_v17 m ρ c)
theorem at7_v18 : W7 m ρ c (Proc.devRef .tc main_v18) = biasRow200 (m ((c : Thread nD τ).loc main_arg8)) :=
  (show W7 m ρ c (Proc.devRef .tc main_v18) = W6 m ρ c (Proc.devRef .tc main_v18) by unwritten).trans (at6_v18 m ρ c)

/-! ### At region 1's exit -/
theorem at8_v31 : W8 m ρ c (Proc.devRef .tc main_v31) = H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W8_arr m ρ c 5).trans ((Region1.final (V7 m ρ) c).trans ?_)
  have e30 : V7 m ρ c main_v30 = M1 (m ((c : Thread nD τ).loc main_arg0)) (m ((c : Thread nD τ).loc main_arg1)) (m ((c : Thread nD τ).loc main_arg2)) (m ((c : Thread nD τ).loc main_arg3)) := at7_v30 m ρ c
  have e15 : V7 m ρ c main_v15 = degreeColumn (m ((c : Thread nD τ).loc main_arg2)) := at7_v15 m ρ c
  have e16 : V7 m ρ c main_v16 = biasRow128 (m ((c : Thread nD τ).loc main_arg4)) := at7_v16 m ρ c
  have e5 : V7 m ρ c main_arg5 = (m ((c : Thread nD τ).loc main_arg5)) := at7_arg5 m ρ c
  have e7 : V7 m ρ c main_v7 = degreeColumn (m ((c : Thread nD τ).loc main_arg1)) := at7_v7 m ρ c
  rw [e30, e15, e16, e5, e7]
  rfl
theorem at8_v15 : W8 m ρ c (Proc.devRef .tc main_v15) = degreeColumn (m ((c : Thread nD τ).loc main_arg2)) :=
  ((W8_arr m ρ c 1).trans (((dat1 (V7 m ρ) c).arrAt_in 1 rfl _).trans (A_eq1 (V7 m ρ) c 1))).trans (at7_v15 m ρ c)
theorem at8_arg1 : W8 m ρ c (Proc.devRef .tc main_arg1) = (m ((c : Thread nD τ).loc main_arg1)) := (W8_of_ne m ρ c main_arg1 (by decide)).trans (at7_arg1 m ρ c)
theorem at8_arg2 : W8 m ρ c (Proc.devRef .tc main_arg2) = (m ((c : Thread nD τ).loc main_arg2)) := (W8_of_ne m ρ c main_arg2 (by decide)).trans (at7_arg2 m ρ c)
theorem at8_arg7 : W8 m ρ c (Proc.devRef .tc main_arg7) = (m ((c : Thread nD τ).loc main_arg7)) := (W8_of_ne m ρ c main_arg7 (by decide)).trans (at7_arg7 m ρ c)
theorem at8_v17 : W8 m ρ c (Proc.devRef .tc main_v17) = biasRow64 (m ((c : Thread nD τ).loc main_arg6)) := (W8_of_ne m ρ c main_v17 (by decide)).trans (at7_v17 m ρ c)
theorem at8_v18 : W8 m ρ c (Proc.devRef .tc main_v18) = biasRow200 (m ((c : Thread nD τ).loc main_arg8)) := (W8_of_ne m ρ c main_v18 (by decide)).trans (at7_v18 m ρ c)

/-! ### At region 2's entry -/
theorem at9_v42 : W9 m ρ c (Proc.devRef .tc main_v42) = M2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (aggregate2 (W8 m ρ c)).trans ?_
  rw [at8_arg1, at8_arg2, at8_v31]
  rfl
theorem at9_arg7 : W9 m ρ c (Proc.devRef .tc main_arg7) = (m ((c : Thread nD τ).loc main_arg7)) :=
  (show W9 m ρ c (Proc.devRef .tc main_arg7) = W8 m ρ c (Proc.devRef .tc main_arg7) by unwritten).trans (at8_arg7 m ρ c)
theorem at9_v15 : W9 m ρ c (Proc.devRef .tc main_v15) = degreeColumn (m ((c : Thread nD τ).loc main_arg2)) :=
  (show W9 m ρ c (Proc.devRef .tc main_v15) = W8 m ρ c (Proc.devRef .tc main_v15) by unwritten).trans (at8_v15 m ρ c)
theorem at9_v17 : W9 m ρ c (Proc.devRef .tc main_v17) = biasRow64 (m ((c : Thread nD τ).loc main_arg6)) :=
  (show W9 m ρ c (Proc.devRef .tc main_v17) = W8 m ρ c (Proc.devRef .tc main_v17) by unwritten).trans (at8_v17 m ρ c)
theorem at9_v18 : W9 m ρ c (Proc.devRef .tc main_v18) = biasRow200 (m ((c : Thread nD τ).loc main_arg8)) :=
  (show W9 m ρ c (Proc.devRef .tc main_v18) = W8 m ρ c (Proc.devRef .tc main_v18) by unwritten).trans (at8_v18 m ρ c)

/-! ### At the end -/

/-- The result buffer at the last boundary is the named function of the arguments as launched. -/
theorem kernel_value : W10 m ρ c (Proc.devRef .tc main_v43) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 5).trans ((Region2.final (V9 m ρ) c).trans ?_)
  have e42 : V9 m ρ c main_v42 = M2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := at9_v42 m ρ c
  have e15 : V9 m ρ c main_v15 = degreeColumn (m ((c : Thread nD τ).loc main_arg2)) := at9_v15 m ρ c
  have e17 : V9 m ρ c main_v17 = biasRow64 (m ((c : Thread nD τ).loc main_arg6)) := at9_v17 m ρ c
  have e7 : V9 m ρ c main_arg7 = (m ((c : Thread nD τ).loc main_arg7)) := at9_arg7 m ρ c
  have e18 : V9 m ρ c main_v18 = biasRow200 (m ((c : Thread nD τ).loc main_arg8)) := at9_v18 m ρ c
  rw [e42, e15, e17, e7, e18]
  rfl

end Cert.KernelIdeal.Fold

end
-- ==== Proof.lean ====
/-
  A two-layer graph convolution network with a log-softmax head: the kernel against its reference, over the extended reals.

  Both programs compute, for node features x, edge endpoints src and dst, weights W1, W2, Wf and biases b1, b2, bf,

      log_softmax ( relu ( conv ( relu ( conv (x, W1, b1) ), W2, b2 ) ) · Wf + bf ),
      conv (h, W, b) = D_dst · A · D_src · (h · W) + b,

  where A sums, into each node, the rows of its incoming edges' sources, and D_src, D_dst scale row p by
  (max (number of edges leaving / entering p) 1) ^ (−1/2).  The reference runs every step on the host.  The kernel runs
  the three dense steps as pipelined regions over blocks of rows — the first product with the out-degree scaling; the
  in-degree scaling, bias and rectification fused with the second product; and the same fused with the last product, the
  bias and the row-wise log-softmax — and leaves the degree counts and the edge aggregation on the host, as the reference
  has them.

  At exact arithmetic a change of float format is the identity and a product into a zero accumulator is the plain sum over
  the contracted axis, so each region's block of rows is the block of the same rows of the whole-array layer (a row of a
  layer's result depends on that row of its row-indexed operands only), and the row blocks tile the array: after each
  region its output is the whole-array layer of the arrays it found.  The host steps between the regions are the same
  functions in both programs and are applied to equal operands.  The reference's log-softmax takes the row maximum once
  more against minus infinity and starts its row sum from zero; neither changes the value.  No law used needs the
  inputs to be finite.  The ideal pass rewrote nothing, so the kernel's idealization is its own text read at exact
  arithmetic.
-/
import proofs.«102556_j18459769438249_2_alg».proof.Defs
import proofs.«102556_j18459769438249_2_alg».proof.Proof.Gen.Kernel
import proofs.«102556_j18459769438249_2_alg».proof.Proof.Gen.Kernel.Skeleton
import proofs.«102556_j18459769438249_2_alg».proof.Proof.Gen.Kernel.Launch
import proofs.«102556_j18459769438249_2_alg».proof.Proof.Gen.Kernel.Points
import proofs.«102556_j18459769438249_2_alg».proof.Proof.Gen.Kernel.Frame
import proofs.«102556_j18459769438249_2_alg».proof.Proof.Gen.KernelIdeal
import proofs.«102556_j18459769438249_2_alg».proof.Proof.Gen.KernelIdeal.Skeleton
import proofs.«102556_j18459769438249_2_alg».proof.Proof.Gen.KernelIdeal.Launch
import proofs.«102556_j18459769438249_2_alg».proof.Proof.Gen.KernelIdeal.Points
import proofs.«102556_j18459769438249_2_alg».proof.Proof.Gen.KernelIdeal.Frame
import proofs.«102556_j18459769438249_2_alg».proof.Proof.Gen.ReferenceIdeal
import proofs.«102556_j18459769438249_2_alg».proof.Proof.Gen.Pre_finite_inputs
import proofs.«102556_j18459769438249_2_alg».proof.Proof.RefRead
import proofs.«102556_j18459769438249_2_alg».proof.Proof.RefValue
import proofs.«102556_j18459769438249_2_alg».proof.Proof.KernelRun
import proofs.«102556_j18459769438249_2_alg».proof.Proof.Fold
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at exact arithmetic. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the result function of the arguments: the kernel by its
    whole run read back through its segments, the reference by its run read one operation at a time. -/
theorem algebraic : Cert.algebraic_KernelIdeal_ReferenceIdeal := by
  intro m ρ m' ρ' _ hagree
  refine ⟨fun c => Cert.KernelIdeal.Stages.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.kernel_value m ρ c), (h c).2⟩)
      (Cert.KernelIdeal.Whole.run_named m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7, e8⟩ := hagree c
    rw [(h c).1, Cert.ReferenceIdeal.ReadP.val_main_v74_eq, Cert.ReferenceIdeal.Bridge.ref_result, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
